-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_arg12 : FVec F S384 .f32) (main_arg13 : FVec F S384 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S384 .f32 := Host.absf main_arg12
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  main_v63

def fn_part2 {F : FTy → Type} [FloatOps F] (main_arg8 : FVec F S384 .f32) (main_arg9 : FVec F S128x128 .f32) (main_arg10 : FVec F S384x128 .f32) (main_arg11 : FVec F S384x128 .f32) (main_arg12 : FVec F S384 .f32) (main_arg13 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384x128 .f32 := Host.absf main_arg11
  let main_cst_18 : FVec F S_ .f32 := constant S_ .f32 0x7F800000#32
  let main_v50 : FVec F S384x128 .f32 := broadcastInDim S384x128 ![] bcast_S_S384x128 main_cst_18
  fn_part3 (F := F) main_arg12 main_arg13 main_v48 main_v49 main_v50

def fn_part1 {F : FTy → Type} [FloatOps F] (main_arg5 : FVec F S384x128 .f32) (main_arg6 : FVec F S384x128 .f32) (main_arg7 : FVec F S384 .f32) (main_arg8 : FVec F S384 .f32) (main_arg9 : FVec F S128x128 .f32) (main_arg10 : FVec F S384x128 .f32) (main_arg11 : FVec F S384x128 .f32) (main_arg12 : FVec F S384 .f32) (main_arg13 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x600000 32) (main_arg2 : FVec F S128x256 .f32) (main_arg3 : FVec F S128 .f32) (main_arg4 : FVec F S128x128 .f32) (main_arg5 : FVec F S384x128 .f32) (main_arg6 : FVec F S384x128 .f32) (main_arg7 : FVec F S384 .f32) (main_arg8 : FVec F S384 .f32) (main_arg9 : FVec F S128x128 .f32) (main_arg10 : FVec F S384x128 .f32) (main_arg11 : FVec F S384x128 .f32) (main_arg12 : FVec F S384 .f32) (main_arg13 : FVec F S384 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S256x128 : Shape := ⟨2, ![256, 128]⟩
abbrev S1x128 : Shape := ⟨2, ![1, 128]⟩
abbrev S50000x128 : Shape := ⟨2, ![50000, 128]⟩
abbrev S1000x256 : Shape := ⟨2, ![1000, 256]⟩
abbrev S1000x128 : Shape := ⟨2, ![1000, 128]⟩
abbrev S_ : Shape := ⟨0, ![]⟩
abbrev S600000x1 : Shape := ⟨2, ![600000, 1]⟩
abbrev S600000x128 : Shape := ⟨2, ![600000, 128]⟩
abbrev S128x384 : Shape := ⟨2, ![128, 384]⟩
abbrev S1x384 : Shape := ⟨2, ![1, 384]⟩
abbrev S1000x384 : Shape := ⟨2, ![1000, 384]⟩

abbrev nBuf : Space → Nat
  | .hbm => 59
  | .vmem => 36
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S384x128, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S128x128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S256x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S128x384, .f32⟩
  | .hbm, ⟨36, _⟩ => ⟨S128x384, .f32⟩
  | .hbm, ⟨37, _⟩ => ⟨S1x384, .f32⟩
  | .hbm, ⟨38, _⟩ => ⟨S1x384, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S128x384, .f32⟩
  | .hbm, ⟨55, _⟩ => ⟨S128x384, .f32⟩
  | .hbm, ⟨56, _⟩ => ⟨S1x384, .f32⟩
  | .hbm, ⟨57, _⟩ => ⟨S1x384, .f32⟩
  | .hbm, ⟨58, _⟩ => ⟨S50000x128, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S128x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S128x384, .f32⟩
  | .local _ .vmem, ⟨16, _⟩ => ⟨S128x384, .f32⟩
  | .local _ .vmem, ⟨17, _⟩ => ⟨S1x384, .f32⟩
  | .local _ .vmem, ⟨18, _⟩ => ⟨S1x384, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S128x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S128x384, .f32⟩
  | .local _ .vmem, ⟨31, _⟩ => ⟨S128x384, .f32⟩
  | .local _ .vmem, ⟨32, _⟩ => ⟨S1x384, .f32⟩
  | .local _ .vmem, ⟨33, _⟩ => ⟨S1x384, .f32⟩
  | .local _ .vmem, ⟨34, _⟩ => ⟨S1000x128, .f32⟩
  | .local _ .vmem, ⟨35, _⟩ => ⟨S1000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x256_S256x128_1_0 : S128x256.Transposes [1, 0] S256x128
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S384x128_S128x384_1_0 : S384x128.Transposes [1, 0] S128x384
  shapeCasts_S384_S1x384 : S384.ShapeCasts S1x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S50000x128.size a
  hwx2_6 : ∀ i : grid2.Coords, EltTy.bits .f32 = 32 ∨ (Rect.block (s := S50000x128) S1000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S50000x128.size a
  hwx3_2 : ∀ i : grid3.Coords, EltTy.bits .f32 = 32 ∨ (Rect.block (s := S50000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S50000x128.size a
  hwx4_1 : ∀ i : grid4.Coords, EltTy.bits .f32 = 32 ∨ (Rect.block (s := S50000x128) S1000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x384.size a ≤ S128x384.size a
  hwx4_2 : ∀ i : grid4.Coords, EltTy.bits .f32 = 32 ∨ (Rect.block (s := S128x384) S128x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .f32 = 32 ∨ (Rect.block (s := S128x384) S128x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x128.size a ≤ S50000x128.size a
  hwx4_6 : ∀ i : grid4.Coords, EltTy.bits .f32 = 32 ∨ (Rect.block (s := S50000x128) S1000x128.size (cc4_transform_6 i) (hinb4_6 i)).WholeWords (EltTy.packing .f32)

variable [Facts₀]

def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v33) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S128x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v37) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v38) S1000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S256x128 : Shape := ⟨2, ![256, 128]⟩
abbrev S50000x128 : Shape := ⟨2, ![50000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S128x384 : Shape := ⟨2, ![128, 384]⟩
abbrev S50000x384 : Shape := ⟨2, ![50000, 384]⟩
abbrev S1x384 : Shape := ⟨2, ![1, 384]⟩

abbrev nBuf : Space → Nat
  | .hbm => 140
  | .vmem => 0
  | .smem => 0
  | _ => 0

abbrev hbmTy0_0 (i : Nat) : BufTy := match i % 128 with
  | 0 => ⟨S50000x256, .f32⟩
  | 1 => ⟨S2x600000, .i32⟩
  | 2 => ⟨S128x256, .f32⟩
  | 3 => ⟨S128, .f32⟩
  | 4 => ⟨S128x128, .f32⟩
  | 5 => ⟨S384x128, .f32⟩
  | 6 => ⟨S384x128, .f32⟩
  | 7 => ⟨S384, .f32⟩
  | 8 => ⟨S384, .f32⟩
  | 9 => ⟨S128x128, .f32⟩
  | 10 => ⟨S384x128, .f32⟩
  | 11 => ⟨S384x128, .f32⟩
  | 12 => ⟨S384, .f32⟩
  | 13 => ⟨S384, .f32⟩
  | 14 => ⟨S1x600000, .i32⟩
  | 15 => ⟨S600000, .i32⟩
  | 16 => ⟨S1x600000, .i32⟩
  | 17 => ⟨S600000, .i32⟩
  | 18 => ⟨S256x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S_, .f32⟩
  | 37 => ⟨S50000x128, .f32⟩
  | 38 => ⟨S600000x1, .i32⟩
  | 39 => ⟨S50000x128, .f32⟩
  | 40 => ⟨S128x384, .f32⟩
  | 41 => ⟨S50000x384, .f32⟩
  | 42 => ⟨S1x384, .f32⟩
  | 43 => ⟨S50000x384, .f32⟩
  | 44 => ⟨S50000x384, .f32⟩
  | 45 => ⟨S128x384, .f32⟩
  | 46 => ⟨S50000x384, .f32⟩
  | 47 => ⟨S1x384, .f32⟩
  | 48 => ⟨S50000x384, .f32⟩
  | 49 => ⟨S50000x384, .f32⟩
  | 50 => ⟨S50000x128, .f32⟩
  | 51 => ⟨S50000x128, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S50000x128, .f32⟩
  | 95 => ⟨S600000x1, .i32⟩
  | 96 => ⟨S50000x128, .f32⟩
  | 97 => ⟨S128x384, .f32⟩
  | 98 => ⟨S50000x384, .f32⟩
  | 99 => ⟨S1x384, .f32⟩
  | 100 => ⟨S50000x384, .f32⟩
  | 101 => ⟨S50000x384, .f32⟩
  | 102 => ⟨S128x384, .f32⟩
  | 103 => ⟨S50000x384, .f32⟩
  | 104 => ⟨S1x384, .f32⟩
  | 105 => ⟨S50000x384, .f32⟩
  | 106 => ⟨S50000x384, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x256, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_cst : Ref sig .tc := ⟨.hbm, 23, rfl⟩
abbrev main_call0_v0 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_1 : Ref sig .tc := ⟨.hbm, 59, rfl⟩
abbrev main_v40 : Ref sig .tc := ⟨.hbm, 60, rfl⟩
abbrev main_v41 : Ref sig .tc := ⟨.hbm, 61, rfl⟩
abbrev main_cst_2 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_6 : Ref sig .tc := ⟨.hbm, 84, rfl⟩
abbrev main_v60 : Ref sig .tc := ⟨.hbm, 85, rfl⟩
abbrev main_v61 : Ref sig .tc := ⟨.hbm, 86, rfl⟩
abbrev main_c_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_8 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_9 : Ref sig .tc := ⟨.hbm, 116, rfl⟩
abbrev main_v89 : Ref sig .tc := ⟨.hbm, 117, rfl⟩
abbrev main_v90 : Ref sig .tc := ⟨.hbm, 118, rfl⟩
abbrev main_cst_10 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_11 : Ref sig .tc := ⟨.hbm, 125, rfl⟩
abbrev main_v96 : Ref sig .tc := ⟨.hbm, 126, rfl⟩
abbrev main_v97 : Ref sig .tc := ⟨.hbm, 127, rfl⟩
abbrev main_cst_12 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_13 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x384_S50000x384_1_0_0_1_n_n_wf : DotDims.WF S50000x128 S128x384 S50000x384 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.KernelRun.lean ====
/-
  The idealized kernel's run with its result array named.

  @main is eight segments: three stretches of host operations and five kernel calls. The buffer contents at each
  segment boundary are a fold from the launch memory — a host stretch applies its operations, a call replaces its
  result array by what its write-backs leave — and the last boundary's contents are `Gen.W8`. Every weakly fair
  execution terminates, without a fault, with every unscoped buffer at `W8`: in particular the result array
  `main_v38` ends at `W8` there, and each argument array ends as launched.
-/
import proofs.«148696_j41326175322234_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Named

end
-- ==== Proof.LibMatmul.lean ====
/-
  A plain matrix product on the extended reals, read at an index given by coordinates: the product of an
  `[M, K]` matrix with a `[K, N]` matrix (contracting the left operand's second axis with the right operand's
  first, no batch axis), accumulated into the zero matrix, has at `(p, q)` the entry `∑ k, lhs (p, k) * rhs (k, q)`.
  The contraction index of such a product is its one coordinate, so the sum over contraction indices is re-indexed
  to a sum over `Fin K`; the operand indices at `(p, q)` and `k` are `(p, k)` and `(k, q)`.
-/
import Idealize.ShloMosaic.Lib.ValueIdx
import Idealize.ShloMosaic.PureOps.Ideal.Laws

namespace Cert.Lib.Matmul

open Idealize.ShloMosaic Idealize.ShloMosaic.ValueIdx

/-- The left operand's index of a plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl (ix2 p q) _).trans hk)

/-- The right operand's index of a plain product at output `(p, q)` and contraction coordinate `k` is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl (ix2 p q) _).trans hk
    | ⟨1, _⟩ => rfl)

/-- A plain `[M, K] × [K, N]` product into the zero accumulator, on the extended reals, read at `(p, q)`. The
    dimension record may be any record equal to the plain one (`hD`). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    matmul D prec lhs rhs (constant ⟨2, ![M, N]⟩ .f32 0x00000000#32) (ix2 p q)
      = ∑ k : Fin K, lhs (ix2 p k) * rhs (ix2 k q) := by
  subst hD
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  rw [plain_lhsIdx, plain_rhsIdx]

end Cert.Lib.Matmul
-- ==== Proof.LibHostDot.lean ====
/-
  The host's plain matrix product on the extended reals, read at an index given by coordinates: the `dot_general`
  of an `[M, K]` matrix with a `[K, N]` matrix (contracting the left operand's second axis with the right operand's
  first, no batch axis) has at `(p, q)` the entry `∑ k, lhs (p, k) * rhs (k, q)`. The companion of the matrix
  unit's product (`LibMatmul`): the same two operand-index facts re-index the sum over contraction indices.
-/
import Idealize.ShloMosaic.Lib.ValueIdx
import Idealize.ShloMosaic.PureOps.Ideal.Laws
import proofs.«148696_j41326175322234_1_alg».proof.Proof.LibMatmul

namespace Cert.Lib.HostDot

open Idealize.ShloMosaic Idealize.ShloMosaic.ValueIdx

/-- A plain `[M, K] × [K, N]` host product on the extended reals, read at `(p, q)`. The dimension record may be
    any record equal to the plain one (`hD`). -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [Cert.Lib.Matmul.plain_lhsIdx, Cert.Lib.Matmul.plain_rhsIdx]

end Cert.Lib.HostDot
-- ==== Proof.Stages.lean ====
/-
  The stages of a two-layer gated graph network on the extended reals, each as ONE function of its input arrays,
  index by index, for any number of rows.

  * `affine x w b`: entry `(p, j)` is `∑ k, x (p, k) * w (k, j) + b (0, j)` — a matrix product with a `[K, N]` weight
    and a one-row bias added to every row.
  * `mlp x w b`: the larger of `affine x w b` and the literal zero, entry by entry (the input layer).
  * `proj h w`: entry `(p, q)` is `∑ k, h (p, k) * w (k, q)` (the message projection).
  * `gru agg h wih whh bih bhh`: the gated recurrent cell. With `gi = affine agg wih bih` and `gh = affine h whh bhh`
    (both `3·H` wide, `H = 128`), `r = σ (gi₀ + gh₀)`, `z = σ (gi₁ + gh₁)`, `n = tanh (gi₂ + r · gh₂)` on the three
    `H`-wide column groups, and the entry is `(1 - z) · n + z · h`. `σ x = 1 / (1 + e^(-x))`.

  Row `p` of every stage depends only on row `p` of the row-indexed inputs: a block of rows of the result is the
  same function of the corresponding block of rows of the inputs. That is what lets a kernel that walks the rows
  in tiles compute the whole array.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.Gnn

open Idealize.ShloMosaic Idealize.ShloMosaic.ValueIdx

/-- An `r × c` array of extended reals. -/
abbrev Mat (r c : ℕ) : Type := (⟨2, ![r, c]⟩ : Shape).Idx → EReal

/-- The literal one of the programs, as the word both of them print. -/
abbrev one : EReal := Ideal.ofBits .f32 0x3F800000#32
/-- The literal zero of the programs, as the word both of them print. -/
abbrev zero : EReal := Ideal.ofBits .f32 0x00000000#32

/-- A matrix product with a one-row bias: `(p, j) ↦ ∑ k, x (p, k) * w (k, j) + b (0, j)`. -/
def affine {M K N : ℕ} (x : Mat M K) (w : Mat K N) (b : Mat 1 N) : Mat M N :=
  fun i => (∑ k : Fin K, x (ix2 (i 0) k) * w (ix2 k (i 1))) + b (ix2 0 (i 1))

/-- The input layer: the affine map, clamped below at zero. -/
def mlp {M K N : ℕ} (x : Mat M K) (w : Mat K N) (b : Mat 1 N) : Mat M N :=
  fun i => max (affine x w b i) zero

/-- The message projection: a plain matrix product. -/
def proj {M K N : ℕ} (h : Mat M K) (w : Mat K N) : Mat M N :=
  fun i => ∑ k : Fin K, h (ix2 (i 0) k) * w (ix2 k (i 1))

/-- One entry of the gated recurrent cell from its six gate pre-activations and the current state. -/
def gruEntry (ir hr iz hz inn hn hcur : EReal) : EReal :=
  (one - Ideal.logistic (iz + hz)) * Ideal.tanh (inn + Ideal.logistic (ir + hr) * hn) + Ideal.logistic (iz + hz) * hcur

/-- Column `o + q` of a `384`-wide row, for the column group starting at `o ∈ {0, 128, 256}`. -/
abbrev col (o : ℕ) (ho : o + 128 ≤ 384) (q : Fin 128) : Fin 384 := ⟨o + q.val, by have := q.isLt; omega⟩

/-- The gated recurrent cell's entry at row `p`, column `q`. -/
def gruRow {M : ℕ} (agg h : Mat M 128) (wih whh : Mat 128 384) (bih bhh : Mat 1 384) (p : Fin M) (q : Fin 128) : EReal :=
  gruEntry (affine agg wih bih (ix2 p (col 0 (by omega) q))) (affine h whh bhh (ix2 p (col 0 (by omega) q)))
    (affine agg wih bih (ix2 p (col 128 (by omega) q))) (affine h whh bhh (ix2 p (col 128 (by omega) q)))
    (affine agg wih bih (ix2 p (col 256 (by omega) q))) (affine h whh bhh (ix2 p (col 256 (by omega) q)))
    (h (ix2 p q))

/-- The gated recurrent cell on `M` rows of width `128`. -/
def gru {M : ℕ} (agg h : Mat M 128) (wih whh : Mat 128 384) (bih bhh : Mat 1 384) : Mat M 128 :=
  fun i => gruRow agg h wih whh bih bhh (i 0) (i 1)

/-! ## Rows: a stage's entry in row `p` only reads row `p` of the row-indexed inputs -/

theorem affine_congr {M M' K N : ℕ} {x : Mat M K} {x' : Mat M' K} {w w' : Mat K N} {b b' : Mat 1 N}
    {p : Fin M} {p' : Fin M'} {j : Fin N} (hx : ∀ k, x (ix2 p k) = x' (ix2 p' k))
    (hw : ∀ k, w (ix2 k j) = w' (ix2 k j)) (hb : b (ix2 0 j) = b' (ix2 0 j)) :
    affine x w b (ix2 p j) = affine x' w' b' (ix2 p' j) := by
  show (∑ k : Fin K, x (ix2 p k) * w (ix2 k j)) + b (ix2 0 j) = (∑ k : Fin K, x' (ix2 p' k) * w' (ix2 k j)) + b' (ix2 0 j)
  rw [hb]
  exact congrArg (· + b' (ix2 0 j)) (Finset.sum_congr rfl fun k _ => by rw [hx k, hw k])

theorem mlp_congr {M M' K N : ℕ} {x : Mat M K} {x' : Mat M' K} {w w' : Mat K N} {b b' : Mat 1 N}
    {p : Fin M} {p' : Fin M'} {j : Fin N} (hx : ∀ k, x (ix2 p k) = x' (ix2 p' k))
    (hw : ∀ k, w (ix2 k j) = w' (ix2 k j)) (hb : b (ix2 0 j) = b' (ix2 0 j)) :
    mlp x w b (ix2 p j) = mlp x' w' b' (ix2 p' j) :=
  congrArg (max · zero) (affine_congr hx hw hb)

theorem proj_congr {M M' K N : ℕ} {h : Mat M K} {h' : Mat M' K} {w w' : Mat K N}
    {p : Fin M} {p' : Fin M'} {j : Fin N} (hh : ∀ k, h (ix2 p k) = h' (ix2 p' k))
    (hw : ∀ k, w (ix2 k j) = w' (ix2 k j)) :
    proj h w (ix2 p j) = proj h' w' (ix2 p' j) :=
  show (∑ k : Fin K, h (ix2 p k) * w (ix2 k j)) = ∑ k : Fin K, h' (ix2 p' k) * w' (ix2 k j) from
    Finset.sum_congr rfl fun k _ => by rw [hh k, hw k]

theorem gru_congr {M M' : ℕ} {agg h : Mat M 128} {agg' h' : Mat M' 128} {wih whh wih' whh' : Mat 128 384}
    {bih bhh bih' bhh' : Mat 1 384} {p : Fin M} {p' : Fin M'} {q : Fin 128}
    (hagg : ∀ k, agg (ix2 p k) = agg' (ix2 p' k)) (hh : ∀ k, h (ix2 p k) = h' (ix2 p' k))
    (hwih : ∀ k j, wih (ix2 k j) = wih' (ix2 k j)) (hwhh : ∀ k j, whh (ix2 k j) = whh' (ix2 k j))
    (hbih : ∀ j, bih (ix2 0 j) = bih' (ix2 0 j)) (hbhh : ∀ j, bhh (ix2 0 j) = bhh' (ix2 0 j)) :
    gru agg h wih whh bih bhh (ix2 p q) = gru agg' h' wih' whh' bih' bhh' (ix2 p' q) := by
  show gruRow agg h wih whh bih bhh p q = gruRow agg' h' wih' whh' bih' bhh' p' q
  unfold gruRow
  rw [hh q, affine_congr (j := col 0 (by omega) q) hagg (fun k => hwih k _) (hbih _),
    affine_congr (j := col 0 (by omega) q) hh (fun k => hwhh k _) (hbhh _),
    affine_congr (j := col 128 (by omega) q) hagg (fun k => hwih k _) (hbih _),
    affine_congr (j := col 128 (by omega) q) hh (fun k => hwhh k _) (hbhh _),
    affine_congr (j := col 256 (by omega) q) hagg (fun k => hwih k _) (hbih _),
    affine_congr (j := col 256 (by omega) q) hh (fun k => hwhh k _) (hbhh _)]

/-- The origin of a rank-2 block. -/
theorem origin : (![0, 0] : Fin 2 → Nat) = fun _ => 0 := funext fun a => by fin_cases a <;> rfl

/-- Row `p` of tile `t` of `1000` rows, among `50000`. -/
def tileRow {n : ℕ} (hn : n = 50) (t : Fin n) (p : Fin 1000) : Fin 50000 :=
  ⟨t.val * 1000 + p.val, by have := t.isLt; have := p.isLt; omega⟩

/-- The logistic function in the host's spelling, one over one plus the exponential of the negation, with the
    literal ones the programs print. -/
theorem logistic_spelled (x : EReal) : Ideal.div one (one + Ideal.exp (-x)) = Ideal.logistic x := by
  unfold one
  rw [Ideal.ofBits_one_f32]
  rfl

end Cert.Gnn

end
-- ==== Proof.Reads.lean ====
/-
  The programs' non-pointwise operations read at an index, on the extended reals, for arbitrary operands:
  * a product on the matrix unit into the zero accumulator plus a one-row bias broadcast over the rows (a kernel
    body's spelling), and the host's `dot_general` plus the same bias through `broadcast_in_dim` (the reference's
    spelling), are both the affine map of `Stages`;
  * a `128`-wide column group cut out of a `384`-wide array at column `o` reads column `o + q`;
  * the gated recurrent cell's entry with the logistic function spelled as one over one plus the exponential of
    the negation is the entry `gruEntry` of `Stages`.
-/
import proofs.«148696_j41326175322234_1_alg».proof.Proof.LibMatmul
import proofs.«148696_j41326175322234_1_alg».proof.Proof.LibHostDot
import proofs.«148696_j41326175322234_1_alg».proof.Proof.Stages

noncomputable section

namespace Cert.Gnn

open Idealize.ShloMosaic Idealize.ShloMosaic.ValueIdx

/-- A product on the matrix unit into the zero accumulator plus a one-row bias broadcast over the rows, read at
    `(p, j)`: the affine map of the operands. -/
theorem gate_apply {M K N : ℕ} {φ₁ φ₂ : FTy} (D : DotDims ⟨2, ![M, K]⟩ ⟨2, ![K, N]⟩ ⟨2, ![M, N]⟩)
    (hD : D = DotDims.plain M K N) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (hN : N ≠ 1)
    (p : Fin M) (j : Fin N) :
    addf (matmul D none x w (constant ⟨2, ![M, N]⟩ .f32 0x00000000#32)) (broadcastTo ⟨2, ![M, N]⟩ b hb) (ix2 p j)
      = affine x w b (ix2 p j) := by
  show matmul D none x w (constant ⟨2, ![M, N]⟩ .f32 0x00000000#32) (ix2 p j) + broadcastTo ⟨2, ![M, N]⟩ b hb (ix2 p j) = _
  rw [Cert.Lib.Matmul.matmul_zero_apply D hD none x w p j,
    broadcastTo_apply b hb (ix2 p j) (ix2 0 j) (fun a => by
      match a with
      | ⟨0, _⟩ => show (0 : ℕ) = if (1 : ℕ) = 1 then 0 else _; rw [if_pos rfl]
      | ⟨1, _⟩ => show j.val = if N = 1 then 0 else j.val; rw [if_neg hN])]
  rfl

/-- The host's product plus a one-row bias broadcast over the rows, read at `(p, j)`: the affine map of the operands. -/
theorem hostGate_apply {M K N : ℕ} {φ₁ φ₂ : FTy} (D : DotDims ⟨2, ![M, K]⟩ ⟨2, ![K, N]⟩ ⟨2, ![M, N]⟩)
    (hD : D = DotDims.plain M K N) (x : FVec Ideal ⟨2, ![M, K]⟩ φ₁) (w : FVec Ideal ⟨2, ![K, N]⟩ φ₂)
    (b : FVec Ideal ⟨2, ![1, N]⟩ .f32) (hb : (⟨2, ![1, N]⟩ : Shape).BroadcastsInDim ⟨2, ![M, N]⟩ ![0, 1]) (hN : N ≠ 1)
    (p : Fin M) (j : Fin N) :
    addf (Host.dotGeneral D none x w) (broadcastInDim ⟨2, ![M, N]⟩ ![0, 1] hb b) (ix2 p j)
      = affine x w b (ix2 p j) := by
  show Host.dotGeneral D none x w (ix2 p j) + broadcastInDim ⟨2, ![M, N]⟩ ![0, 1] hb b (ix2 p j) = _
  rw [Cert.Lib.HostDot.dotGeneral_plain_apply D hD none x w p j,
    broadcastInDim_apply ![0, 1] hb b (ix2 p j) (ix2 0 j) (fun a => by
      match a with
      | ⟨0, _⟩ => show (0 : ℕ) = if (1 : ℕ) = 1 then 0 else _; rw [if_pos rfl]
      | ⟨1, _⟩ => show j.val = if N = 1 then 0 else j.val; rw [if_neg hN])]
  rfl

/-- A `128`-wide column group cut out of a `384`-wide array at column `o`, read at `(p, q)`: the array at `(p, o + q)`. -/
theorem lanes_apply {M : ℕ} (o : ℕ) (ho : o + 128 ≤ 384) (v : FVec Ideal ⟨2, ![M, 384]⟩ .f32)
    (h : (⟨2, ![M, 384]⟩ : Shape).Slices ![0, o] ⟨2, ![M, 128]⟩) (p : Fin M) (q : Fin 128) :
    extractStridedSlice ⟨2, ![M, 128]⟩ ![0, o] v h (ix2 p q) = v (ix2 p (col o ho q)) :=
  extractStridedSlice_apply ![0, o] v h (ix2 p q) (ix2 p (col o ho q)) (fun a => by
    match a with
    | ⟨0, _⟩ => show p.val = 0 + p.val; omega
    | ⟨1, _⟩ => show o + q.val = o + q.val; rfl)

/-- One entry of the gated recurrent cell with the logistic function spelled out in the host's operations. -/
def gruEntryHost (ir hr iz hz inn hn hcur : EReal) : EReal :=
  (one - Ideal.div one (one + Ideal.exp (-(iz + hz)))) * Ideal.tanh (inn + Ideal.div one (one + Ideal.exp (-(ir + hr))) * hn)
    + Ideal.div one (one + Ideal.exp (-(iz + hz))) * hcur

theorem gruEntryHost_eq (ir hr iz hz inn hn hcur : EReal) :
    gruEntryHost ir hr iz hz inn hn hcur = gruEntry ir hr iz hz inn hn hcur := by
  unfold gruEntryHost gruEntry
  rw [logistic_spelled, logistic_spelled]

end Cert.Gnn

end
-- ==== Proof.Bodies.lean ====
/-
  What each kernel body stores, at an index: the stage functions of `Stages` applied to the body's loaded blocks.

  Every body loads whole blocks, changes float format (the identity on the extended reals), multiplies by a
  resident weight block on the matrix unit into a zero accumulator, adds a one-row bias broadcast over the rows,
  and applies entry-by-entry operations. At `(p, q)`:
  * the input layer's body stores `max (∑ k, x (p, k) * w (k, q) + b (0, q)) 0`;
  * the projection's body stores `∑ k, h (p, k) * w (k, q)`;
  * the recurrent cell's body forms the two `384`-wide affine maps of the aggregated messages and of the state,
    cuts each into three `128`-wide column groups, and stores `(1 - z) · n + z · h` at `(p, q)`, which reads the
    affine maps at columns `q`, `128 + q` and `256 + q` of row `p`.
-/
import proofs.«148696_j41326175322234_1_alg».proof.Proof.Gen.KernelIdeal.Skeleton
import proofs.«148696_j41326175322234_1_alg».proof.Proof.Reads

noncomputable section

namespace Cert.KernelIdeal.Bodies

open Idealize.ShloMosaic Idealize.ShloMosaic.ValueIdx Cert.KernelIdeal Cert.KernelIdeal.Gen Cert.Gnn

/-! ## The input layer's body -/

theorem mlp_payload (x0 : Vec Ideal S1000x256 .f32) (x1 : Vec Ideal S256x128 .f32) (x2 : Vec Ideal S1x128 .f32) :
    k0_pay1 x0 x1 x2 = mlp x0 x1 x2 := by
  funext j
  obtain ⟨p, q, rfl⟩ : ∃ (p : Fin 1000) (q : Fin 128), j = ix2 p q := ⟨j 0, j 1, eq_ix2 j⟩
  unfold k0_pay1
  rw [shapeCast_self, shapeCast_self]
  show max (addf (F := Ideal) (matmul dot_S1000x256_S256x128_S1000x128_1_0_0_1_n_n none (truncf .bf16 x0 bitsLt_bf16_f32)
      (truncf .bf16 x1 bitsLt_bf16_f32) (constant S1000x128 .f32 0x00000000#32))
      (broadcastTo S1000x128 x2 broadcasts_S1x128_S1000x128) (ix2 p q)) zero = _
  rw [gate_apply dot_S1000x256_S256x128_S1000x128_1_0_0_1_n_n rfl _ _ x2 broadcasts_S1x128_S1000x128 (by decide) p q]
  rfl

/-! ## The projection's body -/

theorem proj_payload (x0 : Vec Ideal S1000x128 .f32) (x1 : Vec Ideal S128x128 .f32) :
    k1_pay1 x0 x1 = proj x0 x1 := by
  funext j
  obtain ⟨p, q, rfl⟩ : ∃ (p : Fin 1000) (q : Fin 128), j = ix2 p q := ⟨j 0, j 1, eq_ix2 j⟩
  unfold k1_pay1
  rw [shapeCast_self]
  exact Cert.Lib.Matmul.matmul_zero_apply dot_S1000x128_S128x128_S1000x128_1_0_0_1_n_n rfl none
    (truncf .bf16 x0 bitsLt_bf16_f32) (truncf .bf16 x1 bitsLt_bf16_f32) p q

/-- The second projection call runs the same body. -/
theorem proj_payload' (x0 : Vec Ideal S1000x128 .f32) (x1 : Vec Ideal S128x128 .f32) :
    k3_pay1 x0 x1 = proj x0 x1 := proj_payload x0 x1

/-! ## The recurrent cell's body -/

/-- One of the body's two `384`-wide affine maps, as the body spells it. -/
def gate (a : Vec Ideal S1000x128 .f32) (w : Vec Ideal S128x384 .f32) (b : Vec Ideal S1x384 .f32) : FVec Ideal S1000x384 .f32 :=
  addf (matmul dot_S1000x128_S128x384_S1000x384_1_0_0_1_n_n none (truncf .bf16 a bitsLt_bf16_f32)
    (truncf .bf16 w bitsLt_bf16_f32) (constant S1000x384 .f32 0x00000000#32))
    (broadcastTo S1000x384 b broadcasts_S1x384_S1000x384)

theorem gate_eq (a : Vec Ideal S1000x128 .f32) (w : Vec Ideal S128x384 .f32) (b : Vec Ideal S1x384 .f32)
    (p : Fin 1000) (j : Fin 384) : gate a w b (ix2 p j) = affine a w b (ix2 p j) :=
  gate_apply dot_S1000x128_S128x384_S1000x384_1_0_0_1_n_n rfl _ _ b broadcasts_S1x384_S1000x384 (by decide) p j

theorem gru_payload (x0 x1 : Vec Ideal S1000x128 .f32) (x2 x3 : Vec Ideal S128x384 .f32) (x4 x5 : Vec Ideal S1x384 .f32) :
    k2_pay1 x0 x1 x2 x3 x4 x5 = gru x0 x1 x2 x3 x4 x5 := by
  funext j
  obtain ⟨p, q, rfl⟩ : ∃ (p : Fin 1000) (q : Fin 128), j = ix2 p q := ⟨j 0, j 1, eq_ix2 j⟩
  unfold k2_pay1
  simp only [shapeCast_self]
  show gruEntry
      (extractStridedSlice S1000x128 ![0, 0] (gate x0 x2 x4) slices_S1000x384_o0_0_S1000x128 (ix2 p q))
      (extractStridedSlice S1000x128 ![0, 0] (gate x1 x3 x5) slices_S1000x384_o0_0_S1000x128 (ix2 p q))
      (extractStridedSlice S1000x128 ![0, 128] (gate x0 x2 x4) slices_S1000x384_o0_128_S1000x128 (ix2 p q))
      (extractStridedSlice S1000x128 ![0, 128] (gate x1 x3 x5) slices_S1000x384_o0_128_S1000x128 (ix2 p q))
      (extractStridedSlice S1000x128 ![0, 256] (gate x0 x2 x4) slices_S1000x384_o0_256_S1000x128 (ix2 p q))
      (extractStridedSlice S1000x128 ![0, 256] (gate x1 x3 x5) slices_S1000x384_o0_256_S1000x128 (ix2 p q))
      (x1 (ix2 p q)) = _
  rw [lanes_apply 0 (by omega) (gate x0 x2 x4) _ p q, lanes_apply 0 (by omega) (gate x1 x3 x5) _ p q,
    lanes_apply 128 (by omega) (gate x0 x2 x4) _ p q, lanes_apply 128 (by omega) (gate x1 x3 x5) _ p q,
    lanes_apply 256 (by omega) (gate x0 x2 x4) _ p q, lanes_apply 256 (by omega) (gate x1 x3 x5) _ p q,
    gate_eq, gate_eq, gate_eq, gate_eq, gate_eq, gate_eq]
  rfl

/-- The second cell call runs the same body. -/
theorem gru_payload' (x0 x1 : Vec Ideal S1000x128 .f32) (x2 x3 : Vec Ideal S128x384 .f32) (x4 x5 : Vec Ideal S1x384 .f32) :
    k4_pay1 x0 x1 x2 x3 x4 x5 = gru x0 x1 x2 x3 x4 x5 := gru_payload x0 x1 x2 x3 x4 x5

end Cert.KernelIdeal.Bodies

end
-- ==== Proof.Tiles0.lean ====
/-
  Each kernel call's result array, as ONE function of the arrays the call is entered with.

  Every call walks the 50000 rows in 50 tiles of 1000: at grid point `t` a row-indexed operand's block is rows
  `1000·t … 1000·t + 999` of its array, a weight or bias operand's block is its whole array, and the result block is
  written back to rows `1000·t … 1000·t + 999` of the result array. A stage of `Stages` computes row `p` of its result
  from row `p` of its row-indexed inputs, so the block a point writes back is that stage's function of the whole
  arrays, read at the point's rows; the 50 blocks tile the result array, so the array ends holding the stage's
  function of the entry arrays.
-/
import proofs.«148696_j41326175322234_1_alg».proof.Proof.Gen.KernelIdeal.Frame
import proofs.«148696_j41326175322234_1_alg».proof.Proof.Bodies

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-! ## The input layer's call -/

/-- The call's block index maps over its 50 points: a row-indexed operand's block moves down with the point, a
    weight's or bias's block stays. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of window 0's block at point `t` is entry `(1000·t + p, k)` of its array. -/
theorem emb0_0 (t : Fin cfg0.N) (p : Fin 1000) (k : Fin 256) :
    ((cfg0.win 0).blk t).view.emb (ix2 p k) = ix2 (tileRow N_0 t p) k := by
  obtain ⟨e0a, e0b, e1a, e1b, e2a, e2b, e3a, e3b⟩ := maps0 t
  funext a; apply Fin.ext
  match a with
  | ⟨0, _⟩ => show win0_0.index t (0 : Fin 2) * 1000 + 1 * p.val = t.val * 1000 + p.val; omega
  | ⟨1, _⟩ => show win0_0.index t (1 : Fin 2) * 256 + 1 * k.val = k.val; omega

/-- Window 1's block at every point is its whole array. -/
theorem emb0_1 (t : Fin cfg0.N) (a : Fin 256) (b : Fin 128) :
    ((cfg0.win 1).blk t).view.emb (ix2 a b) = ix2 a b := by
  obtain ⟨e0a, e0b, e1a, e1b, e2a, e2b, e3a, e3b⟩ := maps0 t
  funext d; apply Fin.ext
  match d with
  | ⟨0, _⟩ => show win0_1.index t (0 : Fin 2) * 256 + 1 * a.val = a.val; omega
  | ⟨1, _⟩ => show win0_1.index t (1 : Fin 2) * 128 + 1 * b.val = b.val; omega

/-- Window 2's block at every point is its whole array. -/
theorem emb0_2 (t : Fin cfg0.N) (a : Fin 1) (b : Fin 128) :
    ((cfg0.win 2).blk t).view.emb (ix2 a b) = ix2 a b := by
  obtain ⟨e0a, e0b, e1a, e1b, e2a, e2b, e3a, e3b⟩ := maps0 t
  funext d; apply Fin.ext
  match d with
  | ⟨0, _⟩ => show win0_2.index t (0 : Fin 2) * 1 + 1 * a.val = a.val; omega
  | ⟨1, _⟩ => show win0_2.index t (1 : Fin 2) * 128 + 1 * b.val = b.val; omega

/-- Entry `(p, k)` of window 3's block at point `t` is entry `(1000·t + p, k)` of its array. -/
theorem emb0_3 (t : Fin cfg0.N) (p : Fin 1000) (k : Fin 128) :
    ((cfg0.win 3).blk t).view.emb (ix2 p k) = ix2 (tileRow N_0 t p) k := by
  obtain ⟨e0a, e0b, e1a, e1b, e2a, e2b, e3a, e3b⟩ := maps0 t
  funext a; apply Fin.ext
  match a with
  | ⟨0, _⟩ => show win0_3.index t (0 : Fin 2) * 1000 + 1 * p.val = t.val * 1000 + p.val; omega
  | ⟨1, _⟩ => show win0_3.index t (1 : Fin 2) * 128 + 1 * k.val = k.val; omega

/-- What point `t` writes back is the stage's function of the entry arrays, read at the point's rows. -/
theorem flushed0 (c : Dev nD) (t : Fin cfg0.N) :
    (dat0 V c).flushed 3 t = ((cfg0.win 3).blk t).view.read (Elt Ideal)
      (mlp (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin]
  simp only [View.ld_unit_zero (S := S1000x256) origin, View.ld_unit_zero (S := S256x128) origin, View.ld_unit_zero (S := S1x128) origin]
  funext j
  obtain ⟨p, q, rfl⟩ : ∃ (p : Fin 1000) (q : Fin 128), j = ix2 p q := ⟨j 0, j 1, eq_ix2 j⟩
  refine (congrFun (Bodies.mlp_payload (iblk0 V c 0 t) (iblk0 V c 1 t) (iblk0 V c 2 t)) (ix2 p q)).trans ?_
  have key := mlp_congr (x := (iblk0 V c 0 t)) (x' := (V c (Pipeline.arrRef spec0 0))) (w := (iblk0 V c 1 t)) (w' := (V c (Pipeline.arrRef spec0 1))) (b := (iblk0 V c 2 t)) (b' := (V c (Pipeline.arrRef spec0 2)))
    (p := p) (p' := tileRow N_0 t p) (j := q)
    (fun k => congrArg (V c (Pipeline.arrRef spec0 0)) (emb0_0 t p k)) (fun k => congrArg (V c (Pipeline.arrRef spec0 1)) (emb0_1 t k q))
    (congrArg (V c (Pipeline.arrRef spec0 2)) (emb0_2 t 0 q))
  exact key.trans (congrArg (mlp (V c (Pipeline.arrRef spec0 0)) (V c (Pipeline.arrRef spec0 1)) (V c (Pipeline.arrRef spec0 2))) (emb0_3 t p q)).symm

/-- An index of the result array is in point `t`'s block iff each coordinate is in the block's range. -/
theorem mem_blk0 (t : Fin cfg0.N) (i : S50000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v6).slice (win0_3.rect t)).set ↔ _
  rw [View.set_slice_whole, Rect.mem_set_unit]
  exact Iff.rfl

/-- Row `r` of the result array is written back by point `r / 1000`. -/
theorem cover0 (i : S50000x128.Idx) :
    ∃ t : Fin cfg0.N, (cfg0.win 3).flush t = true ∧ i ∈ ((cfg0.win 3).blk t).view.set := by
  have hN : grid0.N = 50 := N_0
  have hi0 : (i 0).val < 50000 := (i 0).isLt
  have hi1 : (i 1).val < 128 := (i 1).isLt
  have ht : (i 0).val / 1000 < grid0.N := by omega
  obtain ⟨e0a, e0b, e1a, e1b, e2a, e2b, e3a, e3b⟩ := maps0 ⟨(i 0).val / 1000, ht⟩
  refine ⟨⟨(i 0).val / 1000, ht⟩, flush0_3 _, ?_⟩
  rw [mem_blk0]
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    rw [e3a]; show (i 0).val / 1000 * 1000 ≤ (i 0).val ∧ (i 0).val < (i 0).val / 1000 * 1000 + 1000; omega
  | ⟨1, _⟩ =>
    show win0_3.index ⟨(i 0).val / 1000, ht⟩ (1 : Fin 2) * 128 ≤ (i 1).val
      ∧ (i 1).val < win0_3.index ⟨(i 0).val / 1000, ht⟩ (1 : Fin 2) * 128 + 128
    rw [e3b]; omega

/-- The call's result array: the stage's function of its entry arrays. -/
theorem final0 (c : Dev nD) : (dat0 V c).arrAt 3 cfg0.N
    = mlp (V c (Pipeline.arrRef spec0 0)) (V c (Pipeline.arrRef spec0 1)) (V c (Pipeline.arrRef spec0 2)) :=
  (dat0 V c).arrAt_eq_of_cover 3 _ (fun t _ => flushed0 V c t) cover0

end Cert.KernelIdeal.Tiles

end
-- ==== Proof.Tiles1.lean ====
/-
  Each kernel call's result array, as ONE function of the arrays the call is entered with.

  Every call walks the 50000 rows in 50 tiles of 1000: at grid point `t` a row-indexed operand's block is rows
  `1000·t … 1000·t + 999` of its array, a weight or bias operand's block is its whole array, and the result block is
  written back to rows `1000·t … 1000·t + 999` of the result array. A stage of `Stages` computes row `p` of its result
  from row `p` of its row-indexed inputs, so the block a point writes back is that stage's function of the whole
  arrays, read at the point's rows; the 50 blocks tile the result array, so the array ends holding the stage's
  function of the entry arrays.
-/
import proofs.«148696_j41326175322234_1_alg».proof.Proof.Gen.KernelIdeal.Frame
import proofs.«148696_j41326175322234_1_alg».proof.Proof.Bodies

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-! ## The first projection call -/

/-- The call's block index maps over its 50 points: a row-indexed operand's block moves down with the point, a
    weight's or bias's block stays. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, k)` of window 0's block at point `t` is entry `(1000·t + p, k)` of its array. -/
theorem emb1_0 (t : Fin cfg1.N) (p : Fin 1000) (k : Fin 128) :
    ((cfg1.win 0).blk t).view.emb (ix2 p k) = ix2 (tileRow N_1 t p) k := by
  obtain ⟨e0a, e0b, e1a, e1b, e2a, e2b⟩ := maps1 t
  funext a; apply Fin.ext
  match a with
  | ⟨0, _⟩ => show win1_0.index t (0 : Fin 2) * 1000 + 1 * p.val = t.val * 1000 + p.val; omega
  | ⟨1, _⟩ => show win1_0.index t (1 : Fin 2) * 128 + 1 * k.val = k.val; omega

/-- Window 1's block at every point is its whole array. -/
theorem emb1_1 (t : Fin cfg1.N) (a : Fin 128) (b : Fin 128) :
    ((cfg1.win 1).blk t).view.emb (ix2 a b) = ix2 a b := by
  obtain ⟨e0a, e0b, e1a, e1b, e2a, e2b⟩ := maps1 t
  funext d; apply Fin.ext
  match d with
  | ⟨0, _⟩ => show win1_1.index t (0 : Fin 2) * 128 + 1 * a.val = a.val; omega
  | ⟨1, _⟩ => show win1_1.index t (1 : Fin 2) * 128 + 1 * b.val = b.val; omega

/-- Entry `(p, k)` of window 2's block at point `t` is entry `(1000·t + p, k)` of its array. -/
theorem emb1_2 (t : Fin cfg1.N) (p : Fin 1000) (k : Fin 128) :
    ((cfg1.win 2).blk t).view.emb (ix2 p k) = ix2 (tileRow N_1 t p) k := by
  obtain ⟨e0a, e0b, e1a, e1b, e2a, e2b⟩ := maps1 t
  funext a; apply Fin.ext
  match a with
  | ⟨0, _⟩ => show win1_2.index t (0 : Fin 2) * 1000 + 1 * p.val = t.val * 1000 + p.val; omega
  | ⟨1, _⟩ => show win1_2.index t (1 : Fin 2) * 128 + 1 * k.val = k.val; omega

/-- What point `t` writes back is the stage's function of the entry arrays, read at the point's rows. -/
theorem flushed1 (c : Dev nD) (t : Fin cfg1.N) :
    (dat1 V c).flushed 2 t = ((cfg1.win 2).blk t).view.read (Elt Ideal)
      (proj (V c (Pipeline.arrRef spec1 0)) (V c (Pipeline.arrRef spec1 1))) := by
  show (cfg1.win 2).cut (grid1.coords t) ((dat1 V c).after 2 t) = _
  rw [after1_2]
  unfold out1_2
  rw [View.canon_unit_zero origin]
  simp only [View.ld_unit_zero (S := S1000x128) origin, View.ld_unit_zero (S := S128x128) origin]
  funext j
  obtain ⟨p, q, rfl⟩ : ∃ (p : Fin 1000) (q : Fin 128), j = ix2 p q := ⟨j 0, j 1, eq_ix2 j⟩
  refine (congrFun (Bodies.proj_payload (iblk1 V c 0 t) (iblk1 V c 1 t)) (ix2 p q)).trans ?_
  have key := proj_congr (h := (iblk1 V c 0 t)) (h' := (V c (Pipeline.arrRef spec1 0))) (w := (iblk1 V c 1 t)) (w' := (V c (Pipeline.arrRef spec1 1)))
    (p := p) (p' := tileRow N_1 t p) (j := q)
    (fun k => congrArg (V c (Pipeline.arrRef spec1 0)) (emb1_0 t p k)) (fun k => congrArg (V c (Pipeline.arrRef spec1 1)) (emb1_1 t k q))
  exact key.trans (congrArg (proj (V c (Pipeline.arrRef spec1 0)) (V c (Pipeline.arrRef spec1 1))) (emb1_2 t p q)).symm

/-- An index of the result array is in point `t`'s block iff each coordinate is in the block's range. -/
theorem mem_blk1 (t : Fin cfg1.N) (i : S50000x128.Idx) :
    i ∈ ((cfg1.win 2).blk t).view.set ↔ ∀ a : Fin 2, win1_2.index t a * S1000x128.size a ≤ (i a).val
      ∧ (i a).val < win1_2.index t a * S1000x128.size a + S1000x128.size a := by
  show i ∈ ((View.whole main_v7).slice (win1_2.rect t)).set ↔ _
  rw [View.set_slice_whole, Rect.mem_set_unit]
  exact Iff.rfl

/-- Row `r` of the result array is written back by point `r / 1000`. -/
theorem cover1 (i : S50000x128.Idx) :
    ∃ t : Fin cfg1.N, (cfg1.win 2).flush t = true ∧ i ∈ ((cfg1.win 2).blk t).view.set := by
  have hN : grid1.N = 50 := N_1
  have hi0 : (i 0).val < 50000 := (i 0).isLt
  have hi1 : (i 1).val < 128 := (i 1).isLt
  have ht : (i 0).val / 1000 < grid1.N := by omega
  obtain ⟨e0a, e0b, e1a, e1b, e2a, e2b⟩ := maps1 ⟨(i 0).val / 1000, ht⟩
  refine ⟨⟨(i 0).val / 1000, ht⟩, flush1_2 _, ?_⟩
  rw [mem_blk1]
  intro a
  match a with
  | ⟨0, _⟩ =>
    show win1_2.index ⟨(i 0).val / 1000, ht⟩ (0 : Fin 2) * 1000 ≤ (i 0).val
      ∧ (i 0).val < win1_2.index ⟨(i 0).val / 1000, ht⟩ (0 : Fin 2) * 1000 + 1000
    rw [e2a]; show (i 0).val / 1000 * 1000 ≤ (i 0).val ∧ (i 0).val < (i 0).val / 1000 * 1000 + 1000; omega
  | ⟨1, _⟩ =>
    show win1_2.index ⟨(i 0).val / 1000, ht⟩ (1 : Fin 2) * 128 ≤ (i 1).val
      ∧ (i 1).val < win1_2.index ⟨(i 0).val / 1000, ht⟩ (1 : Fin 2) * 128 + 128
    rw [e2b]; omega

/-- The call's result array: the stage's function of its entry arrays. -/
theorem final1 (c : Dev nD) : (dat1 V c).arrAt 2 cfg1.N
    = proj (V c (Pipeline.arrRef spec1 0)) (V c (Pipeline.arrRef spec1 1)) :=
  (dat1 V c).arrAt_eq_of_cover 2 _ (fun t _ => flushed1 V c t) cover1

end Cert.KernelIdeal.Tiles

end
-- ==== Proof.Tiles2.lean ====
/-
  Each kernel call's result array, as ONE function of the arrays the call is entered with.

  Every call walks the 50000 rows in 50 tiles of 1000: at grid point `t` a row-indexed operand's block is rows
  `1000·t … 1000·t + 999` of its array, a weight or bias operand's block is its whole array, and the result block is
  written back to rows `1000·t … 1000·t + 999` of the result array. A stage of `Stages` computes row `p` of its result
  from row `p` of its row-indexed inputs, so the block a point writes back is that stage's function of the whole
  arrays, read at the point's rows; the 50 blocks tile the result array, so the array ends holding the stage's
  function of the entry arrays.
-/
import proofs.«148696_j41326175322234_1_alg».proof.Proof.Gen.KernelIdeal.Frame
import proofs.«148696_j41326175322234_1_alg».proof.Proof.Bodies

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-! ## The first recurrent cell's call -/

/-- The call's block index maps over its 50 points: a row-indexed operand's block moves down with the point, a
    weight's or bias's block stays. -/
theorem maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry `(p, k)` of window 0's block at point `t` is entry `(1000·t + p, k)` of its array. -/
theorem emb2_0 (t : Fin cfg2.N) (p : Fin 1000) (k : Fin 128) :
    ((cfg2.win 0).blk t).view.emb (ix2 p k) = ix2 (tileRow N_2 t p) k := by
  obtain ⟨e0a, e0b, e1a, e1b, e2a, e2b, e3a, e3b, e4a, e4b, e5a, e5b, e6a, e6b⟩ := maps2 t
  funext a; apply Fin.ext
  match a with
  | ⟨0, _⟩ => show win2_0.index t (0 : Fin 2) * 1000 + 1 * p.val = t.val * 1000 + p.val; omega
  | ⟨1, _⟩ => show win2_0.index t (1 : Fin 2) * 128 + 1 * k.val = k.val; omega

/-- Entry `(p, k)` of window 1's block at point `t` is entry `(1000·t + p, k)` of its array. -/
theorem emb2_1 (t : Fin cfg2.N) (p : Fin 1000) (k : Fin 128) :
    ((cfg2.win 1).blk t).view.emb (ix2 p k) = ix2 (tileRow N_2 t p) k := by
  obtain ⟨e0a, e0b, e1a, e1b, e2a, e2b, e3a, e3b, e4a, e4b, e5a, e5b, e6a, e6b⟩ := maps2 t
  funext a; apply Fin.ext
  match a with
  | ⟨0, _⟩ => show win2_1.index t (0 : Fin 2) * 1000 + 1 * p.val = t.val * 1000 + p.val; omega
  | ⟨1, _⟩ => show win2_1.index t (1 : Fin 2) * 128 + 1 * k.val = k.val; omega

/-- Window 2's block at every point is its whole array. -/
theorem emb2_2 (t : Fin cfg2.N) (a : Fin 128) (b : Fin 384) :
    ((cfg2.win 2).blk t).view.emb (ix2 a b) = ix2 a b := by
  obtain ⟨e0a, e0b, e1a, e1b, e2a, e2b, e3a, e3b, e4a, e4b, e5a, e5b, e6a, e6b⟩ := maps2 t
  funext d; apply Fin.ext
  match d with
  | ⟨0, _⟩ => show win2_2.index t (0 : Fin 2) * 128 + 1 * a.val = a.val; omega
  | ⟨1, _⟩ => show win2_2.index t (1 : Fin 2) * 384 + 1 * b.val = b.val; omega

/-- Window 3's block at every point is its whole array. -/
theorem emb2_3 (t : Fin cfg2.N) (a : Fin 128) (b : Fin 384) :
    ((cfg2.win 3).blk t).view.emb (ix2 a b) = ix2 a b := by
  obtain ⟨e0a, e0b, e1a, e1b, e2a, e2b, e3a, e3b, e4a, e4b, e5a, e5b, e6a, e6b⟩ := maps2 t
  funext d; apply Fin.ext
  match d with
  | ⟨0, _⟩ => show win2_3.index t (0 : Fin 2) * 128 + 1 * a.val = a.val; omega
  | ⟨1, _⟩ => show win2_3.index t (1 : Fin 2) * 384 + 1 * b.val = b.val; omega

/-- Window 4's block at every point is its whole array. -/
theorem emb2_4 (t : Fin cfg2.N) (a : Fin 1) (b : Fin 384) :
    ((cfg2.win 4).blk t).view.emb (ix2 a b) = ix2 a b := by
  obtain ⟨e0a, e0b, e1a, e1b, e2a, e2b, e3a, e3b, e4a, e4b, e5a, e5b, e6a, e6b⟩ := maps2 t
  funext d; apply Fin.ext
  match d with
  | ⟨0, _⟩ => show win2_4.index t (0 : Fin 2) * 1 + 1 * a.val = a.val; omega
  | ⟨1, _⟩ => show win2_4.index t (1 : Fin 2) * 384 + 1 * b.val = b.val; omega

/-- Window 5's block at every point is its whole array. -/
theorem emb2_5 (t : Fin cfg2.N) (a : Fin 1) (b : Fin 384) :
    ((cfg2.win 5).blk t).view.emb (ix2 a b) = ix2 a b := by
  obtain ⟨e0a, e0b, e1a, e1b, e2a, e2b, e3a, e3b, e4a, e4b, e5a, e5b, e6a, e6b⟩ := maps2 t
  funext d; apply Fin.ext
  match d with
  | ⟨0, _⟩ => show win2_5.index t (0 : Fin 2) * 1 + 1 * a.val = a.val; omega
  | ⟨1, _⟩ => show win2_5.index t (1 : Fin 2) * 384 + 1 * b.val = b.val; omega

/-- Entry `(p, k)` of window 6's block at point `t` is entry `(1000·t + p, k)` of its array. -/
theorem emb2_6 (t : Fin cfg2.N) (p : Fin 1000) (k : Fin 128) :
    ((cfg2.win 6).blk t).view.emb (ix2 p k) = ix2 (tileRow N_2 t p) k := by
  obtain ⟨e0a, e0b, e1a, e1b, e2a, e2b, e3a, e3b, e4a, e4b, e5a, e5b, e6a, e6b⟩ := maps2 t
  funext a; apply Fin.ext
  match a with
  | ⟨0, _⟩ => show win2_6.index t (0 : Fin 2) * 1000 + 1 * p.val = t.val * 1000 + p.val; omega
  | ⟨1, _⟩ => show win2_6.index t (1 : Fin 2) * 128 + 1 * k.val = k.val; omega

/-- What point `t` writes back is the stage's function of the entry arrays, read at the point's rows. -/
theorem flushed2 (c : Dev nD) (t : Fin cfg2.N) :
    (dat2 V c).flushed 6 t = ((cfg2.win 6).blk t).view.read (Elt Ideal)
      (gru (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero origin]
  simp only [View.ld_unit_zero (S := S1000x128) origin, View.ld_unit_zero (S := S128x384) origin, View.ld_unit_zero (S := S1x384) origin]
  funext j
  obtain ⟨p, q, rfl⟩ : ∃ (p : Fin 1000) (q : Fin 128), j = ix2 p q := ⟨j 0, j 1, eq_ix2 j⟩
  refine (congrFun (Bodies.gru_payload (iblk2 V c 0 t) (iblk2 V c 1 t) (iblk2 V c 2 t) (iblk2 V c 3 t) (iblk2 V c 4 t) (iblk2 V c 5 t)) (ix2 p q)).trans ?_
  have key := gru_congr (agg := (iblk2 V c 0 t)) (agg' := (V c (Pipeline.arrRef spec2 0))) (h := (iblk2 V c 1 t)) (h' := (V c (Pipeline.arrRef spec2 1)))
    (wih := (iblk2 V c 2 t)) (wih' := (V c (Pipeline.arrRef spec2 2))) (whh := (iblk2 V c 3 t)) (whh' := (V c (Pipeline.arrRef spec2 3)))
    (bih := (iblk2 V c 4 t)) (bih' := (V c (Pipeline.arrRef spec2 4))) (bhh := (iblk2 V c 5 t)) (bhh' := (V c (Pipeline.arrRef spec2 5)))
    (p := p) (p' := tileRow N_2 t p) (q := q)
    (fun k => congrArg (V c (Pipeline.arrRef spec2 0)) (emb2_0 t p k)) (fun k => congrArg (V c (Pipeline.arrRef spec2 1)) (emb2_1 t p k))
    (fun k j => congrArg (V c (Pipeline.arrRef spec2 2)) (emb2_2 t k j)) (fun k j => congrArg (V c (Pipeline.arrRef spec2 3)) (emb2_3 t k j))
    (fun j => congrArg (V c (Pipeline.arrRef spec2 4)) (emb2_4 t 0 j)) (fun j => congrArg (V c (Pipeline.arrRef spec2 5)) (emb2_5 t 0 j))
  exact key.trans (congrArg (gru (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (emb2_6 t p q)).symm

/-- An index of the result array is in point `t`'s block iff each coordinate is in the block's range. -/
theorem mem_blk2 (t : Fin cfg2.N) (i : S50000x128.Idx) :
    i ∈ ((cfg2.win 6).blk t).view.set ↔ ∀ a : Fin 2, win2_6.index t a * S1000x128.size a ≤ (i a).val
      ∧ (i a).val < win2_6.index t a * S1000x128.size a + S1000x128.size a := by
  show i ∈ ((View.whole main_v22).slice (win2_6.rect t)).set ↔ _
  rw [View.set_slice_whole, Rect.mem_set_unit]
  exact Iff.rfl

/-- Row `r` of the result array is written back by point `r / 1000`. -/
theorem cover2 (i : S50000x128.Idx) :
    ∃ t : Fin cfg2.N, (cfg2.win 6).flush t = true ∧ i ∈ ((cfg2.win 6).blk t).view.set := by
  have hN : grid2.N = 50 := N_2
  have hi0 : (i 0).val < 50000 := (i 0).isLt
  have hi1 : (i 1).val < 128 := (i 1).isLt
  have ht : (i 0).val / 1000 < grid2.N := by omega
  obtain ⟨e0a, e0b, e1a, e1b, e2a, e2b, e3a, e3b, e4a, e4b, e5a, e5b, e6a, e6b⟩ := maps2 ⟨(i 0).val / 1000, ht⟩
  refine ⟨⟨(i 0).val / 1000, ht⟩, flush2_6 _, ?_⟩
  rw [mem_blk2]
  intro a
  match a with
  | ⟨0, _⟩ =>
    show win2_6.index ⟨(i 0).val / 1000, ht⟩ (0 : Fin 2) * 1000 ≤ (i 0).val
      ∧ (i 0).val < win2_6.index ⟨(i 0).val / 1000, ht⟩ (0 : Fin 2) * 1000 + 1000
    rw [e6a]; show (i 0).val / 1000 * 1000 ≤ (i 0).val ∧ (i 0).val < (i 0).val / 1000 * 1000 + 1000; omega
  | ⟨1, _⟩ =>
    show win2_6.index ⟨(i 0).val / 1000, ht⟩ (1 : Fin 2) * 128 ≤ (i 1).val
      ∧ (i 1).val < win2_6.index ⟨(i 0).val / 1000, ht⟩ (1 : Fin 2) * 128 + 128
    rw [e6b]; omega

/-- The call's result array: the stage's function of its entry arrays. -/
theorem final2 (c : Dev nD) : (dat2 V c).arrAt 6 cfg2.N
    = gru (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 _ (fun t _ => flushed2 V c t) cover2

end Cert.KernelIdeal.Tiles

end
-- ==== Proof.Tiles3.lean ====
/-
  Each kernel call's result array, as ONE function of the arrays the call is entered with.

  Every call walks the 50000 rows in 50 tiles of 1000: at grid point `t` a row-indexed operand's block is rows
  `1000·t … 1000·t + 999` of its array, a weight or bias operand's block is its whole array, and the result block is
  written back to rows `1000·t … 1000·t + 999` of the result array. A stage of `Stages` computes row `p` of its result
  from row `p` of its row-indexed inputs, so the block a point writes back is that stage's function of the whole
  arrays, read at the point's rows; the 50 blocks tile the result array, so the array ends holding the stage's
  function of the entry arrays.
-/
import proofs.«148696_j41326175322234_1_alg».proof.Proof.Gen.KernelIdeal.Frame
import proofs.«148696_j41326175322234_1_alg».proof.Proof.Bodies

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-! ## The second projection call -/

/-- The call's block index maps over its 50 points: a row-indexed operand's block moves down with the point, a
    weight's or bias's block stays. -/
theorem maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry `(p, k)` of window 0's block at point `t` is entry `(1000·t + p, k)` of its array. -/
theorem emb3_0 (t : Fin cfg3.N) (p : Fin 1000) (k : Fin 128) :
    ((cfg3.win 0).blk t).view.emb (ix2 p k) = ix2 (tileRow N_3 t p) k := by
  obtain ⟨e0a, e0b, e1a, e1b, e2a, e2b⟩ := maps3 t
  funext a; apply Fin.ext
  match a with
  | ⟨0, _⟩ => show win3_0.index t (0 : Fin 2) * 1000 + 1 * p.val = t.val * 1000 + p.val; omega
  | ⟨1, _⟩ => show win3_0.index t (1 : Fin 2) * 128 + 1 * k.val = k.val; omega

/-- Window 1's block at every point is its whole array. -/
theorem emb3_1 (t : Fin cfg3.N) (a : Fin 128) (b : Fin 128) :
    ((cfg3.win 1).blk t).view.emb (ix2 a b) = ix2 a b := by
  obtain ⟨e0a, e0b, e1a, e1b, e2a, e2b⟩ := maps3 t
  funext d; apply Fin.ext
  match d with
  | ⟨0, _⟩ => show win3_1.index t (0 : Fin 2) * 128 + 1 * a.val = a.val; omega
  | ⟨1, _⟩ => show win3_1.index t (1 : Fin 2) * 128 + 1 * b.val = b.val; omega

/-- Entry `(p, k)` of window 2's block at point `t` is entry `(1000·t + p, k)` of its array. -/
theorem emb3_2 (t : Fin cfg3.N) (p : Fin 1000) (k : Fin 128) :
    ((cfg3.win 2).blk t).view.emb (ix2 p k) = ix2 (tileRow N_3 t p) k := by
  obtain ⟨e0a, e0b, e1a, e1b, e2a, e2b⟩ := maps3 t
  funext a; apply Fin.ext
  match a with
  | ⟨0, _⟩ => show win3_2.index t (0 : Fin 2) * 1000 + 1 * p.val = t.val * 1000 + p.val; omega
  | ⟨1, _⟩ => show win3_2.index t (1 : Fin 2) * 128 + 1 * k.val = k.val; omega

/-- What point `t` writes back is the stage's function of the entry arrays, read at the point's rows. -/
theorem flushed3 (c : Dev nD) (t : Fin cfg3.N) :
    (dat3 V c).flushed 2 t = ((cfg3.win 2).blk t).view.read (Elt Ideal)
      (proj (V c (Pipeline.arrRef spec3 0)) (V c (Pipeline.arrRef spec3 1))) := by
  show (cfg3.win 2).cut (grid3.coords t) ((dat3 V c).after 2 t) = _
  rw [after3_2]
  unfold out3_2
  rw [View.canon_unit_zero origin]
  simp only [View.ld_unit_zero (S := S1000x128) origin, View.ld_unit_zero (S := S128x128) origin]
  funext j
  obtain ⟨p, q, rfl⟩ : ∃ (p : Fin 1000) (q : Fin 128), j = ix2 p q := ⟨j 0, j 1, eq_ix2 j⟩
  refine (congrFun (Bodies.proj_payload' (iblk3 V c 0 t) (iblk3 V c 1 t)) (ix2 p q)).trans ?_
  have key := proj_congr (h := (iblk3 V c 0 t)) (h' := (V c (Pipeline.arrRef spec3 0))) (w := (iblk3 V c 1 t)) (w' := (V c (Pipeline.arrRef spec3 1)))
    (p := p) (p' := tileRow N_3 t p) (j := q)
    (fun k => congrArg (V c (Pipeline.arrRef spec3 0)) (emb3_0 t p k)) (fun k => congrArg (V c (Pipeline.arrRef spec3 1)) (emb3_1 t k q))
  exact key.trans (congrArg (proj (V c (Pipeline.arrRef spec3 0)) (V c (Pipeline.arrRef spec3 1))) (emb3_2 t p q)).symm

/-- An index of the result array is in point `t`'s block iff each coordinate is in the block's range. -/
theorem mem_blk3 (t : Fin cfg3.N) (i : S50000x128.Idx) :
    i ∈ ((cfg3.win 2).blk t).view.set ↔ ∀ a : Fin 2, win3_2.index t a * S1000x128.size a ≤ (i a).val
      ∧ (i a).val < win3_2.index t a * S1000x128.size a + S1000x128.size a := by
  show i ∈ ((View.whole main_v23).slice (win3_2.rect t)).set ↔ _
  rw [View.set_slice_whole, Rect.mem_set_unit]
  exact Iff.rfl

/-- Row `r` of the result array is written back by point `r / 1000`. -/
theorem cover3 (i : S50000x128.Idx) :
    ∃ t : Fin cfg3.N, (cfg3.win 2).flush t = true ∧ i ∈ ((cfg3.win 2).blk t).view.set := by
  have hN : grid3.N = 50 := N_3
  have hi0 : (i 0).val < 50000 := (i 0).isLt
  have hi1 : (i 1).val < 128 := (i 1).isLt
  have ht : (i 0).val / 1000 < grid3.N := by omega
  obtain ⟨e0a, e0b, e1a, e1b, e2a, e2b⟩ := maps3 ⟨(i 0).val / 1000, ht⟩
  refine ⟨⟨(i 0).val / 1000, ht⟩, flush3_2 _, ?_⟩
  rw [mem_blk3]
  intro a
  match a with
  | ⟨0, _⟩ =>
    show win3_2.index ⟨(i 0).val / 1000, ht⟩ (0 : Fin 2) * 1000 ≤ (i 0).val
      ∧ (i 0).val < win3_2.index ⟨(i 0).val / 1000, ht⟩ (0 : Fin 2) * 1000 + 1000
    rw [e2a]; show (i 0).val / 1000 * 1000 ≤ (i 0).val ∧ (i 0).val < (i 0).val / 1000 * 1000 + 1000; omega
  | ⟨1, _⟩ =>
    show win3_2.index ⟨(i 0).val / 1000, ht⟩ (1 : Fin 2) * 128 ≤ (i 1).val
      ∧ (i 1).val < win3_2.index ⟨(i 0).val / 1000, ht⟩ (1 : Fin 2) * 128 + 128
    rw [e2b]; omega

/-- The call's result array: the stage's function of its entry arrays. -/
theorem final3 (c : Dev nD) : (dat3 V c).arrAt 2 cfg3.N
    = proj (V c (Pipeline.arrRef spec3 0)) (V c (Pipeline.arrRef spec3 1)) :=
  (dat3 V c).arrAt_eq_of_cover 2 _ (fun t _ => flushed3 V c t) cover3

end Cert.KernelIdeal.Tiles

end
-- ==== Proof.Bodies4.lean ====
/-
  The second recurrent cell's call runs the same body as the first: its stored value at an index is again the gated
  recurrent cell of `Stages` of the loaded blocks, by the same reading.
-/
import proofs.«148696_j41326175322234_1_alg».proof.Proof.Bodies

noncomputable section

namespace Cert.KernelIdeal.Bodies

open Idealize.ShloMosaic Idealize.ShloMosaic.ValueIdx Cert.KernelIdeal Cert.KernelIdeal.Gen Cert.Gnn

theorem gru_payload4 (x0 x1 : Vec Ideal S1000x128 .f32) (x2 x3 : Vec Ideal S128x384 .f32) (x4 x5 : Vec Ideal S1x384 .f32) :
    k4_pay1 x0 x1 x2 x3 x4 x5 = gru x0 x1 x2 x3 x4 x5 := by
  funext j
  obtain ⟨p, q, rfl⟩ : ∃ (p : Fin 1000) (q : Fin 128), j = ix2 p q := ⟨j 0, j 1, eq_ix2 j⟩
  unfold k4_pay1
  simp only [shapeCast_self]
  show gruEntry
      (extractStridedSlice S1000x128 ![0, 0] (gate x0 x2 x4) slices_S1000x384_o0_0_S1000x128 (ix2 p q))
      (extractStridedSlice S1000x128 ![0, 0] (gate x1 x3 x5) slices_S1000x384_o0_0_S1000x128 (ix2 p q))
      (extractStridedSlice S1000x128 ![0, 128] (gate x0 x2 x4) slices_S1000x384_o0_128_S1000x128 (ix2 p q))
      (extractStridedSlice S1000x128 ![0, 128] (gate x1 x3 x5) slices_S1000x384_o0_128_S1000x128 (ix2 p q))
      (extractStridedSlice S1000x128 ![0, 256] (gate x0 x2 x4) slices_S1000x384_o0_256_S1000x128 (ix2 p q))
      (extractStridedSlice S1000x128 ![0, 256] (gate x1 x3 x5) slices_S1000x384_o0_256_S1000x128 (ix2 p q))
      (x1 (ix2 p q)) = _
  rw [lanes_apply 0 (by omega) (gate x0 x2 x4) _ p q, lanes_apply 0 (by omega) (gate x1 x3 x5) _ p q,
    lanes_apply 128 (by omega) (gate x0 x2 x4) _ p q, lanes_apply 128 (by omega) (gate x1 x3 x5) _ p q,
    lanes_apply 256 (by omega) (gate x0 x2 x4) _ p q, lanes_apply 256 (by omega) (gate x1 x3 x5) _ p q,
    gate_eq, gate_eq, gate_eq, gate_eq, gate_eq, gate_eq]
  rfl

end Cert.KernelIdeal.Bodies

end
-- ==== Proof.Tiles4.lean ====
/-
  Each kernel call's result array, as ONE function of the arrays the call is entered with.

  Every call walks the 50000 rows in 50 tiles of 1000: at grid point `t` a row-indexed operand's block is rows
  `1000·t … 1000·t + 999` of its array, a weight or bias operand's block is its whole array, and the result block is
  written back to rows `1000·t … 1000·t + 999` of the result array. A stage of `Stages` computes row `p` of its result
  from row `p` of its row-indexed inputs, so the block a point writes back is that stage's function of the whole
  arrays, read at the point's rows; the 50 blocks tile the result array, so the array ends holding the stage's
  function of the entry arrays.
-/
import proofs.«148696_j41326175322234_1_alg».proof.Proof.Gen.KernelIdeal.Frame
import proofs.«148696_j41326175322234_1_alg».proof.Proof.Bodies4

set_option maxRecDepth 16384

noncomputable section

namespace Cert.KernelIdeal.Tiles

open Idealize.ShloMosaic Idealize.ShloMosaic.TcCoe Idealize.ShloMosaic.ValueIdx Idealize.SL.Sem
open Cert.KernelIdeal Cert.KernelIdeal.Gen Cert.Gnn
open Idealize.ShloMosaic.Pipeline (Dat Cfg Window)

variable (V : (c : Dev nD) → (b : Ref sig .tc) → Buf (Elt Ideal) ((c : Thread nD τ).loc b))

/-! ## The second recurrent cell's call -/

/-- The call's block index maps over its 50 points: a row-indexed operand's block moves down with the point, a
    weight's or bias's block stays. -/
theorem maps4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Entry `(p, k)` of window 0's block at point `t` is entry `(1000·t + p, k)` of its array. -/
theorem emb4_0 (t : Fin cfg4.N) (p : Fin 1000) (k : Fin 128) :
    ((cfg4.win 0).blk t).view.emb (ix2 p k) = ix2 (tileRow N_4 t p) k := by
  obtain ⟨e0a, e0b, e1a, e1b, e2a, e2b, e3a, e3b, e4a, e4b, e5a, e5b, e6a, e6b⟩ := maps4 t
  funext a; apply Fin.ext
  match a with
  | ⟨0, _⟩ => show win4_0.index t (0 : Fin 2) * 1000 + 1 * p.val = t.val * 1000 + p.val; omega
  | ⟨1, _⟩ => show win4_0.index t (1 : Fin 2) * 128 + 1 * k.val = k.val; omega

/-- Entry `(p, k)` of window 1's block at point `t` is entry `(1000·t + p, k)` of its array. -/
theorem emb4_1 (t : Fin cfg4.N) (p : Fin 1000) (k : Fin 128) :
    ((cfg4.win 1).blk t).view.emb (ix2 p k) = ix2 (tileRow N_4 t p) k := by
  obtain ⟨e0a, e0b, e1a, e1b, e2a, e2b, e3a, e3b, e4a, e4b, e5a, e5b, e6a, e6b⟩ := maps4 t
  funext a; apply Fin.ext
  match a with
  | ⟨0, _⟩ => show win4_1.index t (0 : Fin 2) * 1000 + 1 * p.val = t.val * 1000 + p.val; omega
  | ⟨1, _⟩ => show win4_1.index t (1 : Fin 2) * 128 + 1 * k.val = k.val; omega

/-- Window 2's block at every point is its whole array. -/
theorem emb4_2 (t : Fin cfg4.N) (a : Fin 128) (b : Fin 384) :
    ((cfg4.win 2).blk t).view.emb (ix2 a b) = ix2 a b := by
  obtain ⟨e0a, e0b, e1a, e1b, e2a, e2b, e3a, e3b, e4a, e4b, e5a, e5b, e6a, e6b⟩ := maps4 t
  funext d; apply Fin.ext
  match d with
  | ⟨0, _⟩ => show win4_2.index t (0 : Fin 2) * 128 + 1 * a.val = a.val; omega
  | ⟨1, _⟩ => show win4_2.index t (1 : Fin 2) * 384 + 1 * b.val = b.val; omega

/-- Window 3's block at every point is its whole array. -/
theorem emb4_3 (t : Fin cfg4.N) (a : Fin 128) (b : Fin 384) :
    ((cfg4.win 3).blk t).view.emb (ix2 a b) = ix2 a b := by
  obtain ⟨e0a, e0b, e1a, e1b, e2a, e2b, e3a, e3b, e4a, e4b, e5a, e5b, e6a, e6b⟩ := maps4 t
  funext d; apply Fin.ext
  match d with
  | ⟨0, _⟩ => show win4_3.index t (0 : Fin 2) * 128 + 1 * a.val = a.val; omega
  | ⟨1, _⟩ => show win4_3.index t (1 : Fin 2) * 384 + 1 * b.val = b.val; omega

/-- Window 4's block at every point is its whole array. -/
theorem emb4_4 (t : Fin cfg4.N) (a : Fin 1) (b : Fin 384) :
    ((cfg4.win 4).blk t).view.emb (ix2 a b) = ix2 a b := by
  obtain ⟨e0a, e0b, e1a, e1b, e2a, e2b, e3a, e3b, e4a, e4b, e5a, e5b, e6a, e6b⟩ := maps4 t
  funext d; apply Fin.ext
  match d with
  | ⟨0, _⟩ => show win4_4.index t (0 : Fin 2) * 1 + 1 * a.val = a.val; omega
  | ⟨1, _⟩ => show win4_4.index t (1 : Fin 2) * 384 + 1 * b.val = b.val; omega

/-- Window 5's block at every point is its whole array. -/
theorem emb4_5 (t : Fin cfg4.N) (a : Fin 1) (b : Fin 384) :
    ((cfg4.win 5).blk t).view.emb (ix2 a b) = ix2 a b := by
  obtain ⟨e0a, e0b, e1a, e1b, e2a, e2b, e3a, e3b, e4a, e4b, e5a, e5b, e6a, e6b⟩ := maps4 t
  funext d; apply Fin.ext
  match d with
  | ⟨0, _⟩ => show win4_5.index t (0 : Fin 2) * 1 + 1 * a.val = a.val; omega
  | ⟨1, _⟩ => show win4_5.index t (1 : Fin 2) * 384 + 1 * b.val = b.val; omega

/-- Entry `(p, k)` of window 6's block at point `t` is entry `(1000·t + p, k)` of its array. -/
theorem emb4_6 (t : Fin cfg4.N) (p : Fin 1000) (k : Fin 128) :
    ((cfg4.win 6).blk t).view.emb (ix2 p k) = ix2 (tileRow N_4 t p) k := by
  obtain ⟨e0a, e0b, e1a, e1b, e2a, e2b, e3a, e3b, e4a, e4b, e5a, e5b, e6a, e6b⟩ := maps4 t
  funext a; apply Fin.ext
  match a with
  | ⟨0, _⟩ => show win4_6.index t (0 : Fin 2) * 1000 + 1 * p.val = t.val * 1000 + p.val; omega
  | ⟨1, _⟩ => show win4_6.index t (1 : Fin 2) * 128 + 1 * k.val = k.val; omega

set_option maxHeartbeats 2000000 in
/-- What point `t` writes back is the stage's function of the entry arrays, read at the point's rows. -/
theorem flushed4 (c : Dev nD) (t : Fin cfg4.N) :
    (dat4 V c).flushed 6 t = ((cfg4.win 6).blk t).view.read (Elt Ideal)
      (gru (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero origin]
  simp only [View.ld_unit_zero (S := S1000x128) origin, View.ld_unit_zero (S := S128x384) origin, View.ld_unit_zero (S := S1x384) origin]
  funext j
  obtain ⟨p, q, rfl⟩ : ∃ (p : Fin 1000) (q : Fin 128), j = ix2 p q := ⟨j 0, j 1, eq_ix2 j⟩
  refine (congrFun (Bodies.gru_payload4 (iblk4 V c 0 t) (iblk4 V c 1 t) (iblk4 V c 2 t) (iblk4 V c 3 t) (iblk4 V c 4 t) (iblk4 V c 5 t)) (ix2 p q)).trans ?_
  have key := gru_congr (agg := (iblk4 V c 0 t)) (agg' := (V c (Pipeline.arrRef spec4 0))) (h := (iblk4 V c 1 t)) (h' := (V c (Pipeline.arrRef spec4 1)))
    (wih := (iblk4 V c 2 t)) (wih' := (V c (Pipeline.arrRef spec4 2))) (whh := (iblk4 V c 3 t)) (whh' := (V c (Pipeline.arrRef spec4 3)))
    (bih := (iblk4 V c 4 t)) (bih' := (V c (Pipeline.arrRef spec4 4))) (bhh := (iblk4 V c 5 t)) (bhh' := (V c (Pipeline.arrRef spec4 5)))
    (p := p) (p' := tileRow N_4 t p) (q := q)
    (fun k => congrArg (V c (Pipeline.arrRef spec4 0)) (emb4_0 t p k)) (fun k => congrArg (V c (Pipeline.arrRef spec4 1)) (emb4_1 t p k))
    (fun k j => congrArg (V c (Pipeline.arrRef spec4 2)) (emb4_2 t k j)) (fun k j => congrArg (V c (Pipeline.arrRef spec4 3)) (emb4_3 t k j))
    (fun j => congrArg (V c (Pipeline.arrRef spec4 4)) (emb4_4 t 0 j)) (fun j => congrArg (V c (Pipeline.arrRef spec4 5)) (emb4_5 t 0 j))
  exact key.trans (congrArg (gru (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (emb4_6 t p q)).symm

/-- An index of the result array is in point `t`'s block iff each coordinate is in the block's range. -/
theorem mem_blk4 (t : Fin cfg4.N) (i : S50000x128.Idx) :
    i ∈ ((cfg4.win 6).blk t).view.set ↔ ∀ a : Fin 2, win4_6.index t a * S1000x128.size a ≤ (i a).val
      ∧ (i a).val < win4_6.index t a * S1000x128.size a + S1000x128.size a := by
  show i ∈ ((View.whole main_v38).slice (win4_6.rect t)).set ↔ _
  rw [View.set_slice_whole, Rect.mem_set_unit]
  exact Iff.rfl

/-- Row `r` of the result array is written back by point `r / 1000`. -/
theorem cover4 (i : S50000x128.Idx) :
    ∃ t : Fin cfg4.N, (cfg4.win 6).flush t = true ∧ i ∈ ((cfg4.win 6).blk t).view.set := by
  have hN : grid4.N = 50 := N_4
  have hi0 : (i 0).val < 50000 := (i 0).isLt
  have hi1 : (i 1).val < 128 := (i 1).isLt
  have ht : (i 0).val / 1000 < grid4.N := by omega
  obtain ⟨e0a, e0b, e1a, e1b, e2a, e2b, e3a, e3b, e4a, e4b, e5a, e5b, e6a, e6b⟩ := maps4 ⟨(i 0).val / 1000, ht⟩
  refine ⟨⟨(i 0).val / 1000, ht⟩, flush4_6 _, ?_⟩
  rw [mem_blk4]
  intro a
  match a with
  | ⟨0, _⟩ =>
    show win4_6.index ⟨(i 0).val / 1000, ht⟩ (0 : Fin 2) * 1000 ≤ (i 0).val
      ∧ (i 0).val < win4_6.index ⟨(i 0).val / 1000, ht⟩ (0 : Fin 2) * 1000 + 1000
    rw [e6a]; show (i 0).val / 1000 * 1000 ≤ (i 0).val ∧ (i 0).val < (i 0).val / 1000 * 1000 + 1000; omega
  | ⟨1, _⟩ =>
    show win4_6.index ⟨(i 0).val / 1000, ht⟩ (1 : Fin 2) * 128 ≤ (i 1).val
      ∧ (i 1).val < win4_6.index ⟨(i 0).val / 1000, ht⟩ (1 : Fin 2) * 128 + 128
    rw [e6b]; omega

/-- The call's result array: the stage's function of its entry arrays. -/
theorem final4 (c : Dev nD) : (dat4 V c).arrAt 6 cfg4.N
    = gru (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 _ (fun t _ => flushed4 V c t) cover4

end Cert.KernelIdeal.Tiles

end
-- ==== Proof.RefStages.lean ====
/-
  The reference program's stages are the stages of `Stages`.

  The reference computes, with host operations on whole arrays: the input layer `max (x · W_inᵀ + b_in) 0`; then
  twice — the projection `h · W`, the messages gathered along the edges' sources and summed into their targets,
  and the gated recurrent cell of the summed messages and the state. Its generated reading (`Read`) names each
  operation's value as a function of the program's arguments; here each of those values is identified with a
  stage function of earlier values:
  * a host product plus a broadcast one-row bias is the affine map; clamped at zero it is the input layer;
  * a host product alone is the projection;
  * the gather / scatter-add pair is kept as ONE function `edgeSum` of the projected messages and the edge list,
    in the program's own operations (both programs apply the same pair to the same edge list);
  * the cell, spelled in host operations on `384`-wide arrays cut into three column groups, has at `(p, q)` the
    entry `gruEntry` of the two affine maps at columns `q`, `128 + q`, `256 + q` of row `p`.
  `net` is the whole computation as one function of the fourteen arguments, and the reference's result is `net`.
-/
import proofs.«148696_j41326175322234_1_alg».proof.Proof.Gen.ReferenceIdeal.Read
import proofs.«148696_j41326175322234_1_alg».proof.Proof.Reads

set_option maxRecDepth 65536

noncomputable section

namespace Cert.ReferenceIdeal.Stages

open Idealize.ShloMosaic Idealize.ShloMosaic.ValueIdx Cert.ReferenceIdeal Cert.ReferenceIdeal.Gen Cert.ReferenceIdeal.Read Cert.Gnn

/-! ## Products and the input layer -/

theorem dot_eq_proj (h : FVec Ideal S50000x128 .f32) (w : FVec Ideal S128x128 .f32) :
    Host.dotGeneral (F := Ideal) dot_S50000x128_S128x128_S50000x128_1_0_0_1_n_n none h w = proj h w := by
  funext i
  obtain ⟨p, q, rfl⟩ : ∃ (p : Fin 50000) (q : Fin 128), i = ix2 p q := ⟨i 0, i 1, eq_ix2 i⟩
  exact Cert.Lib.HostDot.dotGeneral_plain_apply dot_S50000x128_S128x128_S50000x128_1_0_0_1_n_n rfl none h w p q

theorem gates_eq (a : FVec Ideal S50000x128 .f32) (wt : FVec Ideal S128x384 .f32) (b1 : FVec Ideal S1x384 .f32) :
    addf (F := Ideal) (Host.dotGeneral (F := Ideal) dot_S50000x128_S128x384_S50000x384_1_0_0_1_n_n none a wt)
      (broadcastInDim S50000x384 ![0, 1] bcast_S1x384_S50000x384_0_1 b1) = affine a wt b1 := by
  funext i
  obtain ⟨p, j, rfl⟩ : ∃ (p : Fin 50000) (j : Fin 384), i = ix2 p j := ⟨i 0, i 1, eq_ix2 i⟩
  exact hostGate_apply dot_S50000x128_S128x384_S50000x384_1_0_0_1_n_n rfl a wt b1 bcast_S1x384_S50000x384_0_1 (by decide) p j

theorem mlp_ref (x0 : FVec Ideal S50000x256 .f32) (x2 : FVec Ideal S128x256 .f32) (x3 : FVec Ideal S128 .f32) :
    val_main_v9 (F := Ideal) x0 x2 x3 = mlp x0 (val_main_v4 (F := Ideal) x2) (val_main_v6 (F := Ideal) x3) := by
  funext i
  obtain ⟨p, q, rfl⟩ : ∃ (p : Fin 50000) (q : Fin 128), i = ix2 p q := ⟨i 0, i 1, eq_ix2 i⟩
  show max (addf (F := Ideal) (Host.dotGeneral dot_S50000x256_S256x128_S50000x128_1_0_0_1_n_n none x0 (val_main_v4 (F := Ideal) x2))
      (broadcastInDim S50000x128 ![0, 1] bcast_S1x128_S50000x128_0_1 (val_main_v6 (F := Ideal) x3)) (ix2 p q)) zero = _
  rw [hostGate_apply dot_S50000x256_S256x128_S50000x128_1_0_0_1_n_n rfl x0 _ _ bcast_S1x128_S50000x128_0_1 (by decide) p q]
  rfl

theorem proj1_ref (x0 : FVec Ideal S50000x256 .f32) (x1 : IVec S2x600000 32) (x2 : FVec Ideal S128x256 .f32) (x3 : FVec Ideal S128 .f32) (x4 : FVec Ideal S128x128 .f32) :
    val_main_v10 (F := Ideal) x0 x2 x3 x4 = proj (val_main_v9 (F := Ideal) x0 x2 x3) x4 := dot_eq_proj _ _

/-! ## The edges -/

/-- The projected messages gathered along the edges' sources and summed into the edges' targets, in the
    program's own operations: row 0 of the edge list holds the sources (a negative one counts from the end),
    row 1 the targets; the sum starts from the zero array. -/
def edgeSum (msg : FVec Ideal S50000x128 .f32) (ei : IVec S2x600000 32) : FVec Ideal S50000x128 .f32 :=
  Host.scatterAdd (F := Ideal) scatter_S50000x128_S600000x1_S600000x128_1_0_0_1 (val_main_v18 (F := Ideal)) (val_main_v19 (F := Ideal) ei)
    (Host.gather gather_S50000x128_S600000x1_S600000x128_1_0_n_n_0_1_1128 msg (val_main_v16 (F := Ideal) ei))

theorem edge1_ref (x0 : FVec Ideal S50000x256 .f32) (x1 : IVec S2x600000 32) (x2 : FVec Ideal S128x256 .f32) (x3 : FVec Ideal S128 .f32) (x4 : FVec Ideal S128x128 .f32) :
    val_main_v20 (F := Ideal) x0 x1 x2 x3 x4 = edgeSum (val_main_v10 (F := Ideal) x0 x2 x3 x4) x1 := rfl

/-! ## The cell -/

/-- The cell as the reference spells it, from the two `384`-wide affine maps and the state. -/
def cellHost (gi gh : FVec Ideal S50000x384 .f32) (h : FVec Ideal S50000x128 .f32) : FVec Ideal S50000x128 .f32 :=
  let ones : FVec Ideal S50000x128 .f32 := broadcastInDim S50000x128 ![] bcast_S_S50000x128 (constant (F := Ideal) S_ .f32 0x3F800000#32)
  let r : FVec Ideal S50000x128 .f32 := Host.divf (F := Ideal) ones (addf (F := Ideal) ones (Host.exp (F := Ideal) (Host.negf (F := Ideal) (addf (F := Ideal) (extractStridedSlice S50000x128 ![0, 0] gi slices_S50000x384_S50000x128_0_0) (extractStridedSlice S50000x128 ![0, 0] gh slices_S50000x384_S50000x128_0_0)))))
  let z : FVec Ideal S50000x128 .f32 := Host.divf (F := Ideal) ones (addf (F := Ideal) ones (Host.exp (F := Ideal) (Host.negf (F := Ideal) (addf (F := Ideal) (extractStridedSlice S50000x128 ![0, 128] gi slices_S50000x384_S50000x128_0_128) (extractStridedSlice S50000x128 ![0, 128] gh slices_S50000x384_S50000x128_0_128)))))
  let n : FVec Ideal S50000x128 .f32 := Host.tanh (F := Ideal) (addf (F := Ideal) (extractStridedSlice S50000x128 ![0, 256] gi slices_S50000x384_S50000x128_0_256) (mulf (F := Ideal) r (extractStridedSlice S50000x128 ![0, 256] gh slices_S50000x384_S50000x128_0_256)))
  addf (F := Ideal) (mulf (F := Ideal) (subf (F := Ideal) ones z) n) (mulf (F := Ideal) z h)

theorem cellHost_apply (gi gh : FVec Ideal S50000x384 .f32) (h : FVec Ideal S50000x128 .f32) (p : Fin 50000) (q : Fin 128) :
    cellHost gi gh h (ix2 p q)
      = gruEntry (gi (ix2 p (col 0 (by omega) q))) (gh (ix2 p (col 0 (by omega) q)))
          (gi (ix2 p (col 128 (by omega) q))) (gh (ix2 p (col 128 (by omega) q)))
          (gi (ix2 p (col 256 (by omega) q))) (gh (ix2 p (col 256 (by omega) q))) (h (ix2 p q)) := by
  rw [← gruEntryHost_eq]
  show gruEntryHost (extractStridedSlice S50000x128 ![0, 0] gi slices_S50000x384_S50000x128_0_0 (ix2 p q)) (extractStridedSlice S50000x128 ![0, 0] gh slices_S50000x384_S50000x128_0_0 (ix2 p q))
      (extractStridedSlice S50000x128 ![0, 128] gi slices_S50000x384_S50000x128_0_128 (ix2 p q)) (extractStridedSlice S50000x128 ![0, 128] gh slices_S50000x384_S50000x128_0_128 (ix2 p q))
      (extractStridedSlice S50000x128 ![0, 256] gi slices_S50000x384_S50000x128_0_256 (ix2 p q)) (extractStridedSlice S50000x128 ![0, 256] gh slices_S50000x384_S50000x128_0_256 (ix2 p q)) (h (ix2 p q)) = _
  rw [lanes_apply 0 (by omega) gi _ p q, lanes_apply 0 (by omega) gh _ p q,
    lanes_apply 128 (by omega) gi _ p q, lanes_apply 128 (by omega) gh _ p q,
    lanes_apply 256 (by omega) gi _ p q, lanes_apply 256 (by omega) gh _ p q]

/-- The cell of two affine maps is the gated recurrent cell of `Stages`. -/
theorem cell_eq_gru (agg h : FVec Ideal S50000x128 .f32) (wih whh : FVec Ideal S128x384 .f32) (bih bhh : FVec Ideal S1x384 .f32) :
    cellHost (affine agg wih bih) (affine h whh bhh) h = gru agg h wih whh bih bhh := by
  funext i
  obtain ⟨p, q, rfl⟩ : ∃ (p : Fin 50000) (q : Fin 128), i = ix2 p q := ⟨i 0, i 1, eq_ix2 i⟩
  rw [cellHost_apply]
  rfl

theorem gru1_ref (x0 : FVec Ideal S50000x256 .f32) (x1 : IVec S2x600000 32) (x2 : FVec Ideal S128x256 .f32) (x3 : FVec Ideal S128 .f32) (x4 : FVec Ideal S128x128 .f32) (x5 x6 : FVec Ideal S384x128 .f32) (x7 x8 : FVec Ideal S384 .f32) :
    val_main_v58 (F := Ideal) x0 x1 x2 x3 x4 x5 x6 x7 x8
      = gru (val_main_v20 (F := Ideal) x0 x1 x2 x3 x4) (val_main_v9 (F := Ideal) x0 x2 x3) (val_main_v21 (F := Ideal) x5) (val_main_v26 (F := Ideal) x6) (val_main_v23 (F := Ideal) x7) (val_main_v28 (F := Ideal) x8) := by
  have h58 : val_main_v58 (F := Ideal) x0 x1 x2 x3 x4 x5 x6 x7 x8 = cellHost (val_main_v25 (F := Ideal) x0 x1 x2 x3 x4 x5 x7) (val_main_v30 (F := Ideal) x0 x2 x3 x6 x8) (val_main_v9 (F := Ideal) x0 x2 x3) := rfl
  have h25 : val_main_v25 (F := Ideal) x0 x1 x2 x3 x4 x5 x7 = affine (val_main_v20 (F := Ideal) x0 x1 x2 x3 x4) (val_main_v21 (F := Ideal) x5) (val_main_v23 (F := Ideal) x7) := gates_eq _ _ _
  have h30 : val_main_v30 (F := Ideal) x0 x2 x3 x6 x8 = affine (val_main_v9 (F := Ideal) x0 x2 x3) (val_main_v26 (F := Ideal) x6) (val_main_v28 (F := Ideal) x8) := gates_eq _ _ _
  rw [h58, h25, h30]
  exact cell_eq_gru _ _ _ _ _ _

theorem proj2_ref (x0 : FVec Ideal S50000x256 .f32) (x1 : IVec S2x600000 32) (x2 : FVec Ideal S128x256 .f32) (x3 : FVec Ideal S128 .f32) (x4 : FVec Ideal S128x128 .f32) (x5 x6 : FVec Ideal S384x128 .f32) (x7 x8 : FVec Ideal S384 .f32) (x9 : FVec Ideal S128x128 .f32) :
    val_main_v59 (F := Ideal) x0 x1 x2 x3 x4 x5 x6 x7 x8 x9 = proj (val_main_v58 (F := Ideal) x0 x1 x2 x3 x4 x5 x6 x7 x8) x9 := dot_eq_proj _ _

theorem edge2_ref (x0 : FVec Ideal S50000x256 .f32) (x1 : IVec S2x600000 32) (x2 : FVec Ideal S128x256 .f32) (x3 : FVec Ideal S128 .f32) (x4 : FVec Ideal S128x128 .f32) (x5 x6 : FVec Ideal S384x128 .f32) (x7 x8 : FVec Ideal S384 .f32) (x9 : FVec Ideal S128x128 .f32) :
    val_main_v69 (F := Ideal) x0 x1 x2 x3 x4 x5 x6 x7 x8 x9 = edgeSum (val_main_v59 (F := Ideal) x0 x1 x2 x3 x4 x5 x6 x7 x8 x9) x1 := rfl

theorem gru2_ref (x0 : FVec Ideal S50000x256 .f32) (x1 : IVec S2x600000 32) (x2 : FVec Ideal S128x256 .f32) (x3 : FVec Ideal S128 .f32) (x4 : FVec Ideal S128x128 .f32) (x5 x6 : FVec Ideal S384x128 .f32) (x7 x8 : FVec Ideal S384 .f32) (x9 : FVec Ideal S128x128 .f32) (x10 x11 : FVec Ideal S384x128 .f32) (x12 x13 : FVec Ideal S384 .f32) :
    val_main_v107 (F := Ideal) x0 x1 x2 x3 x4 x5 x6 x7 x8 x9 x10 x11 x12 x13
      = gru (val_main_v69 (F := Ideal) x0 x1 x2 x3 x4 x5 x6 x7 x8 x9) (val_main_v58 (F := Ideal) x0 x1 x2 x3 x4 x5 x6 x7 x8) (val_main_v70 (F := Ideal) x10) (val_main_v75 (F := Ideal) x11) (val_main_v72 (F := Ideal) x12) (val_main_v77 (F := Ideal) x13) := by
  have h107 : val_main_v107 (F := Ideal) x0 x1 x2 x3 x4 x5 x6 x7 x8 x9 x10 x11 x12 x13 = cellHost (val_main_v74 (F := Ideal) x0 x1 x2 x3 x4 x5 x6 x7 x8 x9 x10 x12) (val_main_v79 (F := Ideal) x0 x1 x2 x3 x4 x5 x6 x7 x8 x11 x13) (val_main_v58 (F := Ideal) x0 x1 x2 x3 x4 x5 x6 x7 x8) := rfl
  have h74 : val_main_v74 (F := Ideal) x0 x1 x2 x3 x4 x5 x6 x7 x8 x9 x10 x12 = affine (val_main_v69 (F := Ideal) x0 x1 x2 x3 x4 x5 x6 x7 x8 x9) (val_main_v70 (F := Ideal) x10) (val_main_v72 (F := Ideal) x12) := gates_eq _ _ _
  have h79 : val_main_v79 (F := Ideal) x0 x1 x2 x3 x4 x5 x6 x7 x8 x11 x13 = affine (val_main_v58 (F := Ideal) x0 x1 x2 x3 x4 x5 x6 x7 x8) (val_main_v75 (F := Ideal) x11) (val_main_v77 (F := Ideal) x13) := gates_eq _ _ _
  rw [h107, h74, h79]
  exact cell_eq_gru _ _ _ _ _ _

/-! ## The edge stage from separate source and target lists, and one-row layouts -/

/-- `edgeSum` from the sources and the targets as two lists: what a program that cut the edge list earlier applies. -/
def edgeSum3 (msg : FVec Ideal S50000x128 .f32) (src dst : IVec S600000 32) : FVec Ideal S50000x128 .f32 :=
  Host.scatterAdd (F := Ideal) scatter_S50000x128_S600000x1_S600000x128_1_0_0_1 (val_main_v18 (F := Ideal))
    (broadcastInDim S600000x1 ![0] bcast_S600000_S600000x1_0 dst)
    (Host.gather gather_S50000x128_S600000x1_S600000x128_1_0_n_n_0_1_1128 msg
      (broadcastInDim S600000x1 ![0] bcast_S600000_S600000x1_0
        (select (cmpi .slt src (val_main_v11 (F := Ideal))) (addi src (val_main_v13 (F := Ideal))) src)))

theorem edgeSum_eq (msg : FVec Ideal S50000x128 .f32) (ei : IVec S2x600000 32) :
    edgeSum msg ei = edgeSum3 msg (val_main_v1 (F := Ideal) ei) (val_main_v3 (F := Ideal) ei) := rfl

/-- A `128`-vector laid out as one row by a reshape is the row the reference lays out by a broadcast. -/
theorem row128 (b : FVec Ideal S128 .f32) (h : S128.ShapeCasts S1x128) :
    shapeCast S1x128 b h = val_main_v6 (F := Ideal) b := by
  funext i
  obtain ⟨a, j, rfl⟩ : ∃ (a : Fin 1) (j : Fin 128), i = ix2 a j := ⟨i 0, i 1, eq_ix2 i⟩
  rw [val_main_v6_apply]
  refine shapeCast_apply b h (ix2 a j) _ ?_
  rewrite [Shape.rowMajor_val_one, Shape.rowMajor_val_two]
  have ha : a.val < 1 := a.isLt
  show j.val = a.val * 128 + j.val
  omega

/-- A `384`-vector laid out as one row by a reshape is the row the reference lays out by a broadcast. -/
theorem row384 (b : FVec Ideal S384 .f32) (h : S384.ShapeCasts S1x384) :
    shapeCast S1x384 b h = val_main_v23 (F := Ideal) b := by
  funext i
  obtain ⟨a, j, rfl⟩ : ∃ (a : Fin 1) (j : Fin 384), i = ix2 a j := ⟨i 0, i 1, eq_ix2 i⟩
  rw [val_main_v23_apply]
  refine shapeCast_apply b h (ix2 a j) _ ?_
  rewrite [Shape.rowMajor_val_one, Shape.rowMajor_val_two]
  have ha : a.val < 1 := a.isLt
  show j.val = a.val * 384 + j.val
  omega

/-! ## The whole computation -/

/-- The two-layer network as one function of the fourteen arguments: the weights transposed and the biases laid
    out as one row by the program's own layout operations. -/
def net (x0 : FVec Ideal S50000x256 .f32) (x1 : IVec S2x600000 32) (x2 : FVec Ideal S128x256 .f32) (x3 : FVec Ideal S128 .f32) (x4 : FVec Ideal S128x128 .f32) (x5 x6 : FVec Ideal S384x128 .f32) (x7 x8 : FVec Ideal S384 .f32) (x9 : FVec Ideal S128x128 .f32) (x10 x11 : FVec Ideal S384x128 .f32) (x12 x13 : FVec Ideal S384 .f32) : FVec Ideal S50000x128 .f32 :=
  let h0 : FVec Ideal S50000x128 .f32 := mlp x0 (val_main_v4 (F := Ideal) x2) (val_main_v6 (F := Ideal) x3)
  let h1 : FVec Ideal S50000x128 .f32 := gru (edgeSum (proj h0 x4) x1) h0 (val_main_v21 (F := Ideal) x5) (val_main_v26 (F := Ideal) x6) (val_main_v23 (F := Ideal) x7) (val_main_v28 (F := Ideal) x8)
  gru (edgeSum (proj h1 x9) x1) h1 (val_main_v70 (F := Ideal) x10) (val_main_v75 (F := Ideal) x11) (val_main_v72 (F := Ideal) x12) (val_main_v77 (F := Ideal) x13)

/-- The reference's result is `net` of its arguments. -/
theorem ref_eq_net (x0 : FVec Ideal S50000x256 .f32) (x1 : IVec S2x600000 32) (x2 : FVec Ideal S128x256 .f32) (x3 : FVec Ideal S128 .f32) (x4 : FVec Ideal S128x128 .f32) (x5 x6 : FVec Ideal S384x128 .f32) (x7 x8 : FVec Ideal S384 .f32) (x9 : FVec Ideal S128x128 .f32) (x10 x11 : FVec Ideal S384x128 .f32) (x12 x13 : FVec Ideal S384 .f32) :
    val_main_v107 (F := Ideal) x0 x1 x2 x3 x4 x5 x6 x7 x8 x9 x10 x11 x12 x13 = net x0 x1 x2 x3 x4 x5 x6 x7 x8 x9 x10 x11 x12 x13 := by
  unfold net
  rw [gru2_ref x0 x1 x2 x3 x4 x5 x6 x7 x8 x9 x10 x11 x12 x13, edge2_ref x0 x1 x2 x3 x4 x5 x6 x7 x8 x9,
    proj2_ref x0 x1 x2 x3 x4 x5 x6 x7 x8 x9, gru1_ref x0 x1 x2 x3 x4 x5 x6 x7 x8, edge1_ref x0 x1 x2 x3 x4,
    proj1_ref x0 x1 x2 x3 x4, mlp_ref x0 x2 x3]

end Cert.ReferenceIdeal.Stages

end
-- ==== Proof.Fold.lean ====
/-
  The idealized kernel's result array is `net` of the launch memory's argument arrays.

  The buffer contents at @main's segment boundaries (`Gen.W0 … Gen.W8`) are read from the last back to the launch:
  * a kernel call's result array is its stage's function of the call's entry arrays (`Tiles0 … Tiles4`), and a call
    leaves every other buffer as it was;
  * a stretch of host operations writes the values it computes — the weights transposed, the biases laid out as
    one row, the edge list cut into sources and targets, the messages gathered and summed along the edges — as
    its operations' terms of the contents before it, and leaves every buffer it does not write.
  Reading `main_v38` at the last boundary through the fold gives the second cell of the second edge sum of the
  second projection of the first cell …, the same composition `net` that the reference computes.
-/
import proofs.«148696_j41326175322234_1_alg».proof.Proof.Gen.KernelIdeal.Frame
import proofs.«148696_j41326175322234_1_alg».proof.Proof.Tiles0
import proofs.«148696_j41326175322234_1_alg».proof.Proof.Tiles1
import proofs.«148696_j41326175322234_1_alg».proof.Proof.Tiles2
import proofs.«148696_j41326175322234_1_alg».proof.Proof.Tiles3
import proofs.«148696_j41326175322234_1_alg».proof.Proof.Tiles4
import proofs.«148696_j41326175322234_1_alg».proof.Proof.RefStages
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.Tactic
open Idealize.ShloMosaic.StableHlo
open Cert.KernelIdeal Cert.KernelIdeal.Gen Cert.Gnn

variable (m : (ℓ : Loc nD τ sig) → Buf (Elt Ideal) ℓ) (ρ : Dev nD → PrngReg)

/-- A host stretch leaves a buffer that none of its operations writes. -/
macro "host_keeps" : tactic => `(tactic| (
  refine StableHlo.after_of_forall_not_mem _ _ (List.forall_iff_forall_mem.mp ?_)
  simp only [hostOps0, hostOps2, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Buffers a segment does not write -/

theorem keep1_arg0 (c : Dev nD) : W1 m ρ c (Proc.devRef .tc main_arg0) = W0 m ρ c (Proc.devRef .tc main_arg0) := by
  show StableHlo.after hostOps0 (W0 m ρ c) (Proc.devRef .tc main_arg0) = W0 m ρ c (Proc.devRef .tc main_arg0)
  host_keeps
theorem keep1_arg4 (c : Dev nD) : W1 m ρ c (Proc.devRef .tc main_arg4) = W0 m ρ c (Proc.devRef .tc main_arg4) := by
  show StableHlo.after hostOps0 (W0 m ρ c) (Proc.devRef .tc main_arg4) = W0 m ρ c (Proc.devRef .tc main_arg4)
  host_keeps
theorem keep2_arg4 (c : Dev nD) : W2 m ρ c (Proc.devRef .tc main_arg4) = W1 m ρ c (Proc.devRef .tc main_arg4) := W2_of_ne m ρ c main_arg4 (by decide)
theorem keep1_arg5 (c : Dev nD) : W1 m ρ c (Proc.devRef .tc main_arg5) = W0 m ρ c (Proc.devRef .tc main_arg5) := by
  show StableHlo.after hostOps0 (W0 m ρ c) (Proc.devRef .tc main_arg5) = W0 m ρ c (Proc.devRef .tc main_arg5)
  host_keeps
theorem keep2_arg5 (c : Dev nD) : W2 m ρ c (Proc.devRef .tc main_arg5) = W1 m ρ c (Proc.devRef .tc main_arg5) := W2_of_ne m ρ c main_arg5 (by decide)
theorem keep3_arg5 (c : Dev nD) : W3 m ρ c (Proc.devRef .tc main_arg5) = W2 m ρ c (Proc.devRef .tc main_arg5) := W3_of_ne m ρ c main_arg5 (by decide)
theorem keep1_arg6 (c : Dev nD) : W1 m ρ c (Proc.devRef .tc main_arg6) = W0 m ρ c (Proc.devRef .tc main_arg6) := by
  show StableHlo.after hostOps0 (W0 m ρ c) (Proc.devRef .tc main_arg6) = W0 m ρ c (Proc.devRef .tc main_arg6)
  host_keeps
theorem keep2_arg6 (c : Dev nD) : W2 m ρ c (Proc.devRef .tc main_arg6) = W1 m ρ c (Proc.devRef .tc main_arg6) := W2_of_ne m ρ c main_arg6 (by decide)
theorem keep3_arg6 (c : Dev nD) : W3 m ρ c (Proc.devRef .tc main_arg6) = W2 m ρ c (Proc.devRef .tc main_arg6) := W3_of_ne m ρ c main_arg6 (by decide)
theorem keep1_arg7 (c : Dev nD) : W1 m ρ c (Proc.devRef .tc main_arg7) = W0 m ρ c (Proc.devRef .tc main_arg7) := by
  show StableHlo.after hostOps0 (W0 m ρ c) (Proc.devRef .tc main_arg7) = W0 m ρ c (Proc.devRef .tc main_arg7)
  host_keeps
theorem keep2_arg7 (c : Dev nD) : W2 m ρ c (Proc.devRef .tc main_arg7) = W1 m ρ c (Proc.devRef .tc main_arg7) := W2_of_ne m ρ c main_arg7 (by decide)
theorem keep3_arg7 (c : Dev nD) : W3 m ρ c (Proc.devRef .tc main_arg7) = W2 m ρ c (Proc.devRef .tc main_arg7) := W3_of_ne m ρ c main_arg7 (by decide)
theorem keep1_arg8 (c : Dev nD) : W1 m ρ c (Proc.devRef .tc main_arg8) = W0 m ρ c (Proc.devRef .tc main_arg8) := by
  show StableHlo.after hostOps0 (W0 m ρ c) (Proc.devRef .tc main_arg8) = W0 m ρ c (Proc.devRef .tc main_arg8)
  host_keeps
theorem keep2_arg8 (c : Dev nD) : W2 m ρ c (Proc.devRef .tc main_arg8) = W1 m ρ c (Proc.devRef .tc main_arg8) := W2_of_ne m ρ c main_arg8 (by decide)
theorem keep3_arg8 (c : Dev nD) : W3 m ρ c (Proc.devRef .tc main_arg8) = W2 m ρ c (Proc.devRef .tc main_arg8) := W3_of_ne m ρ c main_arg8 (by decide)
theorem keep1_arg9 (c : Dev nD) : W1 m ρ c (Proc.devRef .tc main_arg9) = W0 m ρ c (Proc.devRef .tc main_arg9) := by
  show StableHlo.after hostOps0 (W0 m ρ c) (Proc.devRef .tc main_arg9) = W0 m ρ c (Proc.devRef .tc main_arg9)
  host_keeps
theorem keep2_arg9 (c : Dev nD) : W2 m ρ c (Proc.devRef .tc main_arg9) = W1 m ρ c (Proc.devRef .tc main_arg9) := W2_of_ne m ρ c main_arg9 (by decide)
theorem keep3_arg9 (c : Dev nD) : W3 m ρ c (Proc.devRef .tc main_arg9) = W2 m ρ c (Proc.devRef .tc main_arg9) := W3_of_ne m ρ c main_arg9 (by decide)
theorem keep4_arg9 (c : Dev nD) : W4 m ρ c (Proc.devRef .tc main_arg9) = W3 m ρ c (Proc.devRef .tc main_arg9) := by
  show StableHlo.after hostOps2 (W3 m ρ c) (Proc.devRef .tc main_arg9) = W3 m ρ c (Proc.devRef .tc main_arg9)
  host_keeps
theorem keep5_arg9 (c : Dev nD) : W5 m ρ c (Proc.devRef .tc main_arg9) = W4 m ρ c (Proc.devRef .tc main_arg9) := W5_of_ne m ρ c main_arg9 (by decide)
theorem keep1_arg10 (c : Dev nD) : W1 m ρ c (Proc.devRef .tc main_arg10) = W0 m ρ c (Proc.devRef .tc main_arg10) := by
  show StableHlo.after hostOps0 (W0 m ρ c) (Proc.devRef .tc main_arg10) = W0 m ρ c (Proc.devRef .tc main_arg10)
  host_keeps
theorem keep2_arg10 (c : Dev nD) : W2 m ρ c (Proc.devRef .tc main_arg10) = W1 m ρ c (Proc.devRef .tc main_arg10) := W2_of_ne m ρ c main_arg10 (by decide)
theorem keep3_arg10 (c : Dev nD) : W3 m ρ c (Proc.devRef .tc main_arg10) = W2 m ρ c (Proc.devRef .tc main_arg10) := W3_of_ne m ρ c main_arg10 (by decide)
theorem keep4_arg10 (c : Dev nD) : W4 m ρ c (Proc.devRef .tc main_arg10) = W3 m ρ c (Proc.devRef .tc main_arg10) := by
  show StableHlo.after hostOps2 (W3 m ρ c) (Proc.devRef .tc main_arg10) = W3 m ρ c (Proc.devRef .tc main_arg10)
  host_keeps
theorem keep5_arg10 (c : Dev nD) : W5 m ρ c (Proc.devRef .tc main_arg10) = W4 m ρ c (Proc.devRef .tc main_arg10) := W5_of_ne m ρ c main_arg10 (by decide)
theorem keep6_arg10 (c : Dev nD) : W6 m ρ c (Proc.devRef .tc main_arg10) = W5 m ρ c (Proc.devRef .tc main_arg10) := W6_of_ne m ρ c main_arg10 (by decide)
theorem keep1_arg11 (c : Dev nD) : W1 m ρ c (Proc.devRef .tc main_arg11) = W0 m ρ c (Proc.devRef .tc main_arg11) := by
  show StableHlo.after hostOps0 (W0 m ρ c) (Proc.devRef .tc main_arg11) = W0 m ρ c (Proc.devRef .tc main_arg11)
  host_keeps
theorem keep2_arg11 (c : Dev nD) : W2 m ρ c (Proc.devRef .tc main_arg11) = W1 m ρ c (Proc.devRef .tc main_arg11) := W2_of_ne m ρ c main_arg11 (by decide)
theorem keep3_arg11 (c : Dev nD) : W3 m ρ c (Proc.devRef .tc main_arg11) = W2 m ρ c (Proc.devRef .tc main_arg11) := W3_of_ne m ρ c main_arg11 (by decide)
theorem keep4_arg11 (c : Dev nD) : W4 m ρ c (Proc.devRef .tc main_arg11) = W3 m ρ c (Proc.devRef .tc main_arg11) := by
  show StableHlo.after hostOps2 (W3 m ρ c) (Proc.devRef .tc main_arg11) = W3 m ρ c (Proc.devRef .tc main_arg11)
  host_keeps
theorem keep5_arg11 (c : Dev nD) : W5 m ρ c (Proc.devRef .tc main_arg11) = W4 m ρ c (Proc.devRef .tc main_arg11) := W5_of_ne m ρ c main_arg11 (by decide)
theorem keep6_arg11 (c : Dev nD) : W6 m ρ c (Proc.devRef .tc main_arg11) = W5 m ρ c (Proc.devRef .tc main_arg11) := W6_of_ne m ρ c main_arg11 (by decide)
theorem keep1_arg12 (c : Dev nD) : W1 m ρ c (Proc.devRef .tc main_arg12) = W0 m ρ c (Proc.devRef .tc main_arg12) := by
  show StableHlo.after hostOps0 (W0 m ρ c) (Proc.devRef .tc main_arg12) = W0 m ρ c (Proc.devRef .tc main_arg12)
  host_keeps
theorem keep2_arg12 (c : Dev nD) : W2 m ρ c (Proc.devRef .tc main_arg12) = W1 m ρ c (Proc.devRef .tc main_arg12) := W2_of_ne m ρ c main_arg12 (by decide)
theorem keep3_arg12 (c : Dev nD) : W3 m ρ c (Proc.devRef .tc main_arg12) = W2 m ρ c (Proc.devRef .tc main_arg12) := W3_of_ne m ρ c main_arg12 (by decide)
theorem keep4_arg12 (c : Dev nD) : W4 m ρ c (Proc.devRef .tc main_arg12) = W3 m ρ c (Proc.devRef .tc main_arg12) := by
  show StableHlo.after hostOps2 (W3 m ρ c) (Proc.devRef .tc main_arg12) = W3 m ρ c (Proc.devRef .tc main_arg12)
  host_keeps
theorem keep5_arg12 (c : Dev nD) : W5 m ρ c (Proc.devRef .tc main_arg12) = W4 m ρ c (Proc.devRef .tc main_arg12) := W5_of_ne m ρ c main_arg12 (by decide)
theorem keep6_arg12 (c : Dev nD) : W6 m ρ c (Proc.devRef .tc main_arg12) = W5 m ρ c (Proc.devRef .tc main_arg12) := W6_of_ne m ρ c main_arg12 (by decide)
theorem keep1_arg13 (c : Dev nD) : W1 m ρ c (Proc.devRef .tc main_arg13) = W0 m ρ c (Proc.devRef .tc main_arg13) := by
  show StableHlo.after hostOps0 (W0 m ρ c) (Proc.devRef .tc main_arg13) = W0 m ρ c (Proc.devRef .tc main_arg13)
  host_keeps
theorem keep2_arg13 (c : Dev nD) : W2 m ρ c (Proc.devRef .tc main_arg13) = W1 m ρ c (Proc.devRef .tc main_arg13) := W2_of_ne m ρ c main_arg13 (by decide)
theorem keep3_arg13 (c : Dev nD) : W3 m ρ c (Proc.devRef .tc main_arg13) = W2 m ρ c (Proc.devRef .tc main_arg13) := W3_of_ne m ρ c main_arg13 (by decide)
theorem keep4_arg13 (c : Dev nD) : W4 m ρ c (Proc.devRef .tc main_arg13) = W3 m ρ c (Proc.devRef .tc main_arg13) := by
  show StableHlo.after hostOps2 (W3 m ρ c) (Proc.devRef .tc main_arg13) = W3 m ρ c (Proc.devRef .tc main_arg13)
  host_keeps
theorem keep5_arg13 (c : Dev nD) : W5 m ρ c (Proc.devRef .tc main_arg13) = W4 m ρ c (Proc.devRef .tc main_arg13) := W5_of_ne m ρ c main_arg13 (by decide)
theorem keep6_arg13 (c : Dev nD) : W6 m ρ c (Proc.devRef .tc main_arg13) = W5 m ρ c (Proc.devRef .tc main_arg13) := W6_of_ne m ρ c main_arg13 (by decide)
theorem keep2_v1 (c : Dev nD) : W2 m ρ c (Proc.devRef .tc main_v1) = W1 m ρ c (Proc.devRef .tc main_v1) := W2_of_ne m ρ c main_v1 (by decide)
theorem keep3_v1 (c : Dev nD) : W3 m ρ c (Proc.devRef .tc main_v1) = W2 m ρ c (Proc.devRef .tc main_v1) := W3_of_ne m ρ c main_v1 (by decide)
theorem keep4_v1 (c : Dev nD) : W4 m ρ c (Proc.devRef .tc main_v1) = W3 m ρ c (Proc.devRef .tc main_v1) := by
  show StableHlo.after hostOps2 (W3 m ρ c) (Proc.devRef .tc main_v1) = W3 m ρ c (Proc.devRef .tc main_v1)
  host_keeps
theorem keep5_v1 (c : Dev nD) : W5 m ρ c (Proc.devRef .tc main_v1) = W4 m ρ c (Proc.devRef .tc main_v1) := W5_of_ne m ρ c main_v1 (by decide)
theorem keep6_v1 (c : Dev nD) : W6 m ρ c (Proc.devRef .tc main_v1) = W5 m ρ c (Proc.devRef .tc main_v1) := W6_of_ne m ρ c main_v1 (by decide)
theorem keep2_v3 (c : Dev nD) : W2 m ρ c (Proc.devRef .tc main_v3) = W1 m ρ c (Proc.devRef .tc main_v3) := W2_of_ne m ρ c main_v3 (by decide)
theorem keep3_v3 (c : Dev nD) : W3 m ρ c (Proc.devRef .tc main_v3) = W2 m ρ c (Proc.devRef .tc main_v3) := W3_of_ne m ρ c main_v3 (by decide)
theorem keep4_v3 (c : Dev nD) : W4 m ρ c (Proc.devRef .tc main_v3) = W3 m ρ c (Proc.devRef .tc main_v3) := by
  show StableHlo.after hostOps2 (W3 m ρ c) (Proc.devRef .tc main_v3) = W3 m ρ c (Proc.devRef .tc main_v3)
  host_keeps
theorem keep5_v3 (c : Dev nD) : W5 m ρ c (Proc.devRef .tc main_v3) = W4 m ρ c (Proc.devRef .tc main_v3) := W5_of_ne m ρ c main_v3 (by decide)
theorem keep6_v3 (c : Dev nD) : W6 m ρ c (Proc.devRef .tc main_v3) = W5 m ρ c (Proc.devRef .tc main_v3) := W6_of_ne m ρ c main_v3 (by decide)
theorem keep4_v6 (c : Dev nD) : W4 m ρ c (Proc.devRef .tc main_v6) = W3 m ρ c (Proc.devRef .tc main_v6) := by
  show StableHlo.after hostOps2 (W3 m ρ c) (Proc.devRef .tc main_v6) = W3 m ρ c (Proc.devRef .tc main_v6)
  host_keeps
theorem keep7_v22 (c : Dev nD) : W7 m ρ c (Proc.devRef .tc main_v22) = W6 m ρ c (Proc.devRef .tc main_v22) := by
  show StableHlo.after hostOps4 (W6 m ρ c) (Proc.devRef .tc main_v22) = W6 m ρ c (Proc.devRef .tc main_v22)
  host_keeps

/-- The first projection call reads the input layer's result and leaves it. -/
theorem in3_v6 (c : Dev nD) : W3 m ρ c (Proc.devRef .tc main_v6) = W2 m ρ c (Proc.devRef .tc main_v6) :=
  (W3_arr m ρ c 0).trans (((dat1 (V2 m ρ) c).arrAt_in 0 rfl _).trans (A_eq1 (V2 m ρ) c 0))

/-- The second projection call reads the first cell's result and leaves it. -/
theorem in6_v22 (c : Dev nD) : W6 m ρ c (Proc.devRef .tc main_v22) = W5 m ρ c (Proc.devRef .tc main_v22) :=
  (W6_arr m ρ c 0).trans (((dat3 (V5 m ρ) c).arrAt_in 0 rfl _).trans (A_eq3 (V5 m ρ) c 0))

/-! ## The argument arrays where they are read -/

theorem at1_arg0 (c : Dev nD) : W1 m ρ c (Proc.devRef .tc main_arg0) = (m ((c : Thread nD τ).loc main_arg0)) :=
  (keep1_arg0 m ρ c)
theorem at2_arg4 (c : Dev nD) : W2 m ρ c (Proc.devRef .tc main_arg4) = (m ((c : Thread nD τ).loc main_arg4)) :=
  (keep2_arg4 m ρ c).trans (keep1_arg4 m ρ c)
theorem at3_arg5 (c : Dev nD) : W3 m ρ c (Proc.devRef .tc main_arg5) = (m ((c : Thread nD τ).loc main_arg5)) :=
  (keep3_arg5 m ρ c).trans ((keep2_arg5 m ρ c).trans (keep1_arg5 m ρ c))
theorem at3_arg6 (c : Dev nD) : W3 m ρ c (Proc.devRef .tc main_arg6) = (m ((c : Thread nD τ).loc main_arg6)) :=
  (keep3_arg6 m ρ c).trans ((keep2_arg6 m ρ c).trans (keep1_arg6 m ρ c))
theorem at3_arg7 (c : Dev nD) : W3 m ρ c (Proc.devRef .tc main_arg7) = (m ((c : Thread nD τ).loc main_arg7)) :=
  (keep3_arg7 m ρ c).trans ((keep2_arg7 m ρ c).trans (keep1_arg7 m ρ c))
theorem at3_arg8 (c : Dev nD) : W3 m ρ c (Proc.devRef .tc main_arg8) = (m ((c : Thread nD τ).loc main_arg8)) :=
  (keep3_arg8 m ρ c).trans ((keep2_arg8 m ρ c).trans (keep1_arg8 m ρ c))
theorem at5_arg9 (c : Dev nD) : W5 m ρ c (Proc.devRef .tc main_arg9) = (m ((c : Thread nD τ).loc main_arg9)) :=
  (keep5_arg9 m ρ c).trans ((keep4_arg9 m ρ c).trans ((keep3_arg9 m ρ c).trans ((keep2_arg9 m ρ c).trans (keep1_arg9 m ρ c))))
theorem at6_arg10 (c : Dev nD) : W6 m ρ c (Proc.devRef .tc main_arg10) = (m ((c : Thread nD τ).loc main_arg10)) :=
  (keep6_arg10 m ρ c).trans ((keep5_arg10 m ρ c).trans ((keep4_arg10 m ρ c).trans ((keep3_arg10 m ρ c).trans ((keep2_arg10 m ρ c).trans (keep1_arg10 m ρ c)))))
theorem at6_arg11 (c : Dev nD) : W6 m ρ c (Proc.devRef .tc main_arg11) = (m ((c : Thread nD τ).loc main_arg11)) :=
  (keep6_arg11 m ρ c).trans ((keep5_arg11 m ρ c).trans ((keep4_arg11 m ρ c).trans ((keep3_arg11 m ρ c).trans ((keep2_arg11 m ρ c).trans (keep1_arg11 m ρ c)))))
theorem at6_arg12 (c : Dev nD) : W6 m ρ c (Proc.devRef .tc main_arg12) = (m ((c : Thread nD τ).loc main_arg12)) :=
  (keep6_arg12 m ρ c).trans ((keep5_arg12 m ρ c).trans ((keep4_arg12 m ρ c).trans ((keep3_arg12 m ρ c).trans ((keep2_arg12 m ρ c).trans (keep1_arg12 m ρ c)))))
theorem at6_arg13 (c : Dev nD) : W6 m ρ c (Proc.devRef .tc main_arg13) = (m ((c : Thread nD τ).loc main_arg13)) :=
  (keep6_arg13 m ρ c).trans ((keep5_arg13 m ρ c).trans ((keep4_arg13 m ρ c).trans ((keep3_arg13 m ρ c).trans ((keep2_arg13 m ρ c).trans (keep1_arg13 m ρ c)))))

/-! ## What the first stretch of host operations computes -/

theorem val1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

theorem val1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

theorem val1_v4 (c : Dev nD) : W1 m ρ c (Proc.devRef .tc main_v4) = Cert.ReferenceIdeal.Read.val_main_v4 (F := Ideal) (m ((c : Thread nD τ).loc main_arg2)) := by
  show StableHlo.after hostOps0 (W0 m ρ c) (Proc.devRef .tc main_v4) = _
  after_results
  rfl

theorem val1_v5 (c : Dev nD) : W1 m ρ c (Proc.devRef .tc main_v5) = Cert.ReferenceIdeal.Read.val_main_v6 (F := Ideal) (m ((c : Thread nD τ).loc main_arg3)) := by
  show StableHlo.after hostOps0 (W0 m ρ c) (Proc.devRef .tc main_v5) = _
  after_results
  exact Cert.ReferenceIdeal.Stages.row128 _ _

theorem at3_v1 (c : Dev nD) : W3 m ρ c (Proc.devRef .tc main_v1) = Cert.ReferenceIdeal.Read.val_main_v1 (F := Ideal) (m ((c : Thread nD τ).loc main_arg1)) :=
  (keep3_v1 m ρ c).trans ((keep2_v1 m ρ c).trans (val1_v1 m ρ c))
theorem at3_v3 (c : Dev nD) : W3 m ρ c (Proc.devRef .tc main_v3) = Cert.ReferenceIdeal.Read.val_main_v3 (F := Ideal) (m ((c : Thread nD τ).loc main_arg1)) :=
  (keep3_v3 m ρ c).trans ((keep2_v3 m ρ c).trans (val1_v3 m ρ c))
theorem at6_v1 (c : Dev nD) : W6 m ρ c (Proc.devRef .tc main_v1) = Cert.ReferenceIdeal.Read.val_main_v1 (F := Ideal) (m ((c : Thread nD τ).loc main_arg1)) :=
  (keep6_v1 m ρ c).trans ((keep5_v1 m ρ c).trans ((keep4_v1 m ρ c).trans ((keep3_v1 m ρ c).trans ((keep2_v1 m ρ c).trans (val1_v1 m ρ c)))))
theorem at6_v3 (c : Dev nD) : W6 m ρ c (Proc.devRef .tc main_v3) = Cert.ReferenceIdeal.Read.val_main_v3 (F := Ideal) (m ((c : Thread nD τ).loc main_arg1)) :=
  (keep6_v3 m ρ c).trans ((keep5_v3 m ρ c).trans ((keep4_v3 m ρ c).trans ((keep3_v3 m ρ c).trans ((keep2_v3 m ρ c).trans (val1_v3 m ρ c)))))

/-! ## The stages' values, as functions of the launch memory -/

/-- The input layer's result. -/
def H0 (c : Dev nD) : Mat 50000 128 :=
  mlp (m ((c : Thread nD τ).loc main_arg0)) (Cert.ReferenceIdeal.Read.val_main_v4 (F := Ideal) (m ((c : Thread nD τ).loc main_arg2))) (Cert.ReferenceIdeal.Read.val_main_v6 (F := Ideal) (m ((c : Thread nD τ).loc main_arg3)))
/-- The first layer's projected messages. -/
def M1 (c : Dev nD) : Mat 50000 128 := proj (H0 m c) (m ((c : Thread nD τ).loc main_arg4))
/-- The first layer's messages summed along the edges. -/
def G1 (c : Dev nD) : Mat 50000 128 := Cert.ReferenceIdeal.Stages.edgeSum (M1 m c) (m ((c : Thread nD τ).loc main_arg1))
/-- The first layer's result. -/
def H1 (c : Dev nD) : Mat 50000 128 :=
  gru (G1 m c) (H0 m c) (Cert.ReferenceIdeal.Read.val_main_v21 (F := Ideal) (m ((c : Thread nD τ).loc main_arg5))) (Cert.ReferenceIdeal.Read.val_main_v26 (F := Ideal) (m ((c : Thread nD τ).loc main_arg6)))
    (Cert.ReferenceIdeal.Read.val_main_v23 (F := Ideal) (m ((c : Thread nD τ).loc main_arg7))) (Cert.ReferenceIdeal.Read.val_main_v28 (F := Ideal) (m ((c : Thread nD τ).loc main_arg8)))
/-- The second layer's projected messages. -/
def M2 (c : Dev nD) : Mat 50000 128 := proj (H1 m c) (m ((c : Thread nD τ).loc main_arg9))
/-- The second layer's messages summed along the edges. -/
def G2 (c : Dev nD) : Mat 50000 128 := Cert.ReferenceIdeal.Stages.edgeSum (M2 m c) (m ((c : Thread nD τ).loc main_arg1))
/-- The second layer's result. -/
def H2 (c : Dev nD) : Mat 50000 128 :=
  gru (G2 m c) (H1 m c) (Cert.ReferenceIdeal.Read.val_main_v70 (F := Ideal) (m ((c : Thread nD τ).loc main_arg10))) (Cert.ReferenceIdeal.Read.val_main_v75 (F := Ideal) (m ((c : Thread nD τ).loc main_arg11)))
    (Cert.ReferenceIdeal.Read.val_main_v72 (F := Ideal) (m ((c : Thread nD τ).loc main_arg12))) (Cert.ReferenceIdeal.Read.val_main_v77 (F := Ideal) (m ((c : Thread nD τ).loc main_arg13)))

/-! ## The first layer -/

theorem at2_v6 (c : Dev nD) : W2 m ρ c (Proc.devRef .tc main_v6) = H0 m c := by
  refine ((W2_arr m ρ c 3).trans (Tiles.final0 (V1 m ρ) c)).trans ?_
  show mlp (W1 m ρ c (Proc.devRef .tc main_arg0)) (W1 m ρ c (Proc.devRef .tc main_v4)) (W1 m ρ c (Proc.devRef .tc main_v5)) = _
  rw [at1_arg0 m ρ c, val1_v4 m ρ c, val1_v5 m ρ c]
  rfl

theorem at3_v7 (c : Dev nD) : W3 m ρ c (Proc.devRef .tc main_v7) = M1 m c := by
  refine ((W3_arr m ρ c 2).trans (Tiles.final1 (V2 m ρ) c)).trans ?_
  show proj (W2 m ρ c (Proc.devRef .tc main_v6)) (W2 m ρ c (Proc.devRef .tc main_arg4)) = _
  rw [at2_v6 m ρ c, at2_arg4 m ρ c]
  rfl

theorem at4_v17 (c : Dev nD) : W4 m ρ c (Proc.devRef .tc main_v17) = G1 m c := by
  have h : W4 m ρ c (Proc.devRef .tc main_v17) = Cert.ReferenceIdeal.Stages.edgeSum3 (W3 m ρ c (Proc.devRef .tc main_v7)) (W3 m ρ c (Proc.devRef .tc main_v1)) (W3 m ρ c (Proc.devRef .tc main_v3)) := by
    show StableHlo.after hostOps2 (W3 m ρ c) (Proc.devRef .tc main_v17) = _
    after_results
    rfl
  rw [h, at3_v7 m ρ c, at3_v1 m ρ c, at3_v3 m ρ c]
  rfl

theorem at4_v6 (c : Dev nD) : W4 m ρ c (Proc.devRef .tc main_v6) = H0 m c :=
  (keep4_v6 m ρ c).trans ((in3_v6 m ρ c).trans (at2_v6 m ρ c))

theorem at4_v18 (c : Dev nD) : W4 m ρ c (Proc.devRef .tc main_v18) = Cert.ReferenceIdeal.Read.val_main_v21 (F := Ideal) (m ((c : Thread nD τ).loc main_arg5)) := by
  have h : W4 m ρ c (Proc.devRef .tc main_v18) = Cert.ReferenceIdeal.Read.val_main_v21 (F := Ideal) (W3 m ρ c (Proc.devRef .tc main_arg5)) := by
    show StableHlo.after hostOps2 (W3 m ρ c) (Proc.devRef .tc main_v18) = _
    after_results
    rfl
  rw [h, at3_arg5 m ρ c]

theorem at4_v19 (c : Dev nD) : W4 m ρ c (Proc.devRef .tc main_v19) = Cert.ReferenceIdeal.Read.val_main_v26 (F := Ideal) (m ((c : Thread nD τ).loc main_arg6)) := by
  have h : W4 m ρ c (Proc.devRef .tc main_v19) = Cert.ReferenceIdeal.Read.val_main_v26 (F := Ideal) (W3 m ρ c (Proc.devRef .tc main_arg6)) := by
    show StableHlo.after hostOps2 (W3 m ρ c) (Proc.devRef .tc main_v19) = _
    after_results
    rfl
  rw [h, at3_arg6 m ρ c]

theorem at4_v20 (c : Dev nD) : W4 m ρ c (Proc.devRef .tc main_v20) = Cert.ReferenceIdeal.Read.val_main_v23 (F := Ideal) (m ((c : Thread nD τ).loc main_arg7)) := by
  have h : W4 m ρ c (Proc.devRef .tc main_v20) = Cert.ReferenceIdeal.Read.val_main_v23 (F := Ideal) (W3 m ρ c (Proc.devRef .tc main_arg7)) := by
    show StableHlo.after hostOps2 (W3 m ρ c) (Proc.devRef .tc main_v20) = _
    after_results
    exact Cert.ReferenceIdeal.Stages.row384 _ _
  rw [h, at3_arg7 m ρ c]

theorem at4_v21 (c : Dev nD) : W4 m ρ c (Proc.devRef .tc main_v21) = Cert.ReferenceIdeal.Read.val_main_v28 (F := Ideal) (m ((c : Thread nD τ).loc main_arg8)) := by
  have h : W4 m ρ c (Proc.devRef .tc main_v21) = Cert.ReferenceIdeal.Read.val_main_v28 (F := Ideal) (W3 m ρ c (Proc.devRef .tc main_arg8)) := by
    show StableHlo.after hostOps2 (W3 m ρ c) (Proc.devRef .tc main_v21) = _
    after_results
    exact Cert.ReferenceIdeal.Stages.row384 _ _
  rw [h, at3_arg8 m ρ c]

theorem at5_v22 (c : Dev nD) : W5 m ρ c (Proc.devRef .tc main_v22) = H1 m c := by
  refine ((W5_arr m ρ c 6).trans (Tiles.final2 (V4 m ρ) c)).trans ?_
  show gru (W4 m ρ c (Proc.devRef .tc main_v17)) (W4 m ρ c (Proc.devRef .tc main_v6)) (W4 m ρ c (Proc.devRef .tc main_v18)) (W4 m ρ c (Proc.devRef .tc main_v19))
      (W4 m ρ c (Proc.devRef .tc main_v20)) (W4 m ρ c (Proc.devRef .tc main_v21)) = _
  rw [at4_v17 m ρ c, at4_v6 m ρ c, at4_v18 m ρ c, at4_v19 m ρ c, at4_v20 m ρ c, at4_v21 m ρ c]
  rfl

/-! ## The second layer -/

theorem at6_v23 (c : Dev nD) : W6 m ρ c (Proc.devRef .tc main_v23) = M2 m c := by
  refine ((W6_arr m ρ c 2).trans (Tiles.final3 (V5 m ρ) c)).trans ?_
  show proj (W5 m ρ c (Proc.devRef .tc main_v22)) (W5 m ρ c (Proc.devRef .tc main_arg9)) = _
  rw [at5_v22 m ρ c, at5_arg9 m ρ c]
  rfl

theorem at7_v33 (c : Dev nD) : W7 m ρ c (Proc.devRef .tc main_v33) = G2 m c := by
  have h : W7 m ρ c (Proc.devRef .tc main_v33) = Cert.ReferenceIdeal.Stages.edgeSum3 (W6 m ρ c (Proc.devRef .tc main_v23)) (W6 m ρ c (Proc.devRef .tc main_v1)) (W6 m ρ c (Proc.devRef .tc main_v3)) := by
    show StableHlo.after hostOps4 (W6 m ρ c) (Proc.devRef .tc main_v33) = _
    after_results
    rfl
  rw [h, at6_v23 m ρ c, at6_v1 m ρ c, at6_v3 m ρ c]
  rfl

theorem at7_v22 (c : Dev nD) : W7 m ρ c (Proc.devRef .tc main_v22) = H1 m c :=
  (keep7_v22 m ρ c).trans ((in6_v22 m ρ c).trans (at5_v22 m ρ c))

theorem at7_v34 (c : Dev nD) : W7 m ρ c (Proc.devRef .tc main_v34) = Cert.ReferenceIdeal.Read.val_main_v70 (F := Ideal) (m ((c : Thread nD τ).loc main_arg10)) := by
  have h : W7 m ρ c (Proc.devRef .tc main_v34) = Cert.ReferenceIdeal.Read.val_main_v70 (F := Ideal) (W6 m ρ c (Proc.devRef .tc main_arg10)) := by
    show StableHlo.after hostOps4 (W6 m ρ c) (Proc.devRef .tc main_v34) = _
    after_results
    rfl
  rw [h, at6_arg10 m ρ c]

theorem at7_v35 (c : Dev nD) : W7 m ρ c (Proc.devRef .tc main_v35) = Cert.ReferenceIdeal.Read.val_main_v75 (F := Ideal) (m ((c : Thread nD τ).loc main_arg11)) := by
  have h : W7 m ρ c (Proc.devRef .tc main_v35) = Cert.ReferenceIdeal.Read.val_main_v75 (F := Ideal) (W6 m ρ c (Proc.devRef .tc main_arg11)) := by
    show StableHlo.after hostOps4 (W6 m ρ c) (Proc.devRef .tc main_v35) = _
    after_results
    rfl
  rw [h, at6_arg11 m ρ c]

theorem at7_v36 (c : Dev nD) : W7 m ρ c (Proc.devRef .tc main_v36) = Cert.ReferenceIdeal.Read.val_main_v72 (F := Ideal) (m ((c : Thread nD τ).loc main_arg12)) := by
  have h : W7 m ρ c (Proc.devRef .tc main_v36) = Cert.ReferenceIdeal.Read.val_main_v72 (F := Ideal) (W6 m ρ c (Proc.devRef .tc main_arg12)) := by
    show StableHlo.after hostOps4 (W6 m ρ c) (Proc.devRef .tc main_v36) = _
    after_results
    exact Cert.ReferenceIdeal.Stages.row384 _ _
  rw [h, at6_arg12 m ρ c]

theorem at7_v37 (c : Dev nD) : W7 m ρ c (Proc.devRef .tc main_v37) = Cert.ReferenceIdeal.Read.val_main_v77 (F := Ideal) (m ((c : Thread nD τ).loc main_arg13)) := by
  have h : W7 m ρ c (Proc.devRef .tc main_v37) = Cert.ReferenceIdeal.Read.val_main_v77 (F := Ideal) (W6 m ρ c (Proc.devRef .tc main_arg13)) := by
    show StableHlo.after hostOps4 (W6 m ρ c) (Proc.devRef .tc main_v37) = _
    after_results
    exact Cert.ReferenceIdeal.Stages.row384 _ _
  rw [h, at6_arg13 m ρ c]

theorem at8_v38 (c : Dev nD) : W8 m ρ c (Proc.devRef .tc main_v38) = H2 m c := by
  refine ((W8_arr m ρ c 6).trans (Tiles.final4 (V7 m ρ) c)).trans ?_
  show gru (W7 m ρ c (Proc.devRef .tc main_v33)) (W7 m ρ c (Proc.devRef .tc main_v22)) (W7 m ρ c (Proc.devRef .tc main_v34)) (W7 m ρ c (Proc.devRef .tc main_v35))
      (W7 m ρ c (Proc.devRef .tc main_v36)) (W7 m ρ c (Proc.devRef .tc main_v37)) = _
  rw [at7_v33 m ρ c, at7_v22 m ρ c, at7_v34 m ρ c, at7_v35 m ρ c, at7_v36 m ρ c, at7_v37 m ρ c]
  rfl

/-- The result array at the last boundary is `net` of the launch memory's arguments. -/
theorem result (c : Dev nD) : W8 m ρ c (Proc.devRef .tc main_v38)
    = Cert.ReferenceIdeal.Stages.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  at8_v38 m ρ c

end Cert.KernelIdeal.Fold

end
-- ==== Proof.lean ====
/-
  A two-layer gated graph network — an input layer `h₀ = max (x · W_inᵀ + b_in) 0`, then twice: project the node
  states (`h · W`), gather the projected messages along the edges' sources and sum them into the edges' targets, and
  update the states by a gated recurrent cell of the summed messages and the old states — computed by a program that
  runs the three dense stages as tiled kernel calls (five calls: the input layer, and per layer a projection and a
  cell) against a reference that runs every stage as a host operation on whole arrays.

  On the extended reals the two programs compute the same function of their fourteen arguments, entry by entry, and
  no algebraic law is needed to see it: a change of float format is the identity; a product on the matrix unit into
  a zero accumulator and the host's product are the same sum over the contracted axis; a bias laid out as one row by
  a reshape or by a broadcast is the same row; the cell's logistic function is one over one plus the exponential of
  the negation in both spellings (`Reads`, `RefStages`); the gather and scatter-add over the edge list are the same
  host operations in both programs. What differs is the arrangement: each kernel call walks the 50000 node rows in
  50 tiles of 1000, and every stage computes row `p` of its result from row `p` of its row-indexed inputs, so the
  tiles assemble to the stage's function of the whole arrays (`Tiles0 … Tiles4`). Reading the kernel program's
  buffers from its last segment boundary back to the launch (`Fold`) and the reference's generated run
  (`RefStages`) both end at `net` of the arguments. The inputs' finiteness is never used.

  The word-level kernel and the idealized kernel run, terminate and keep their arguments by their generated frames;
  the reference by its generated run; the idealization rewrote no operation, so there is nothing to preserve.
-/
import proofs.«148696_j41326175322234_1_alg».proof.Defs
import proofs.«148696_j41326175322234_1_alg».proof.Proof.Gen.Kernel
import proofs.«148696_j41326175322234_1_alg».proof.Proof.Gen.Kernel.Skeleton
import proofs.«148696_j41326175322234_1_alg».proof.Proof.Gen.Kernel.Launch
import proofs.«148696_j41326175322234_1_alg».proof.Proof.Gen.Kernel.Points
import proofs.«148696_j41326175322234_1_alg».proof.Proof.Gen.Kernel.Frame
import proofs.«148696_j41326175322234_1_alg».proof.Proof.Gen.KernelIdeal
import proofs.«148696_j41326175322234_1_alg».proof.Proof.Gen.KernelIdeal.Skeleton
import proofs.«148696_j41326175322234_1_alg».proof.Proof.Gen.KernelIdeal.Launch
import proofs.«148696_j41326175322234_1_alg».proof.Proof.Gen.KernelIdeal.Points
import proofs.«148696_j41326175322234_1_alg».proof.Proof.Gen.KernelIdeal.Frame
import proofs.«148696_j41326175322234_1_alg».proof.Proof.Gen.ReferenceIdeal
import proofs.«148696_j41326175322234_1_alg».proof.Proof.Gen.Pre_finite_inputs
import proofs.«148696_j41326175322234_1_alg».proof.Proof.Gen.ReferenceIdeal.Read
import proofs.«148696_j41326175322234_1_alg».proof.Proof.KernelRun
import proofs.«148696_j41326175322234_1_alg».proof.Proof.Fold
import proofs.«148696_j41326175322234_1_alg».proof.Proof.RefStages
import Idealize.ShloMosaic.Adequacy
import Idealize.ShloMosaic.Init

set_option maxRecDepth 16384

noncomputable section

namespace Cert.Proof

open Idealize.ShloMosaic Idealize.SL.Sem

/-- The word-level kernel program runs, terminates without a fault and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its generated run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at `net` of the kernel program's argument arrays. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => Cert.ReferenceIdeal.Stages.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.Fold.result m ρ c), (h c).2⟩)
      (Cert.KernelIdeal.Named.run (F := Ideal) m ρ)
  · refine (θ_run Cert.ReferenceIdeal.defs _ _).mono (fun r h c => ⟨?_, (h c).2⟩) (Cert.ReferenceIdeal.Value.run (F := Ideal) m' ρ')
    have hv := (h c).1
    rw [Cert.ReferenceIdeal.Read.val_main_v107_eq, Cert.ReferenceIdeal.Stages.ref_eq_net] at hv
    obtain ⟨e0, e1, e2, e3, e4, e5, e6, e7, e8, e9, e10, e11, e12, e13⟩ := hagree c
    rw [e0, e1, e2, e3, e4, e5, e6, e7, e8, e9, e10, e11, e12, e13] at hv
    exact hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
